-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x32 .f32) (main_arg1 : IVec S2x1600000 32) (main_arg2 : FVec F S32x64 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x32 : Shape := ⟨2, ![10000, 32]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 108
  | .vmem => 30
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x64, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .f32⟩
  | .hbm, ⟨61, _⟩ => ⟨S1700000x1, .f32⟩
  | .hbm, ⟨62, _⟩ => ⟨S1700000x64, .f32⟩
  | .hbm, ⟨63, _⟩ => ⟨S1700000x64, .f32⟩
  | .hbm, ⟨64, _⟩ => ⟨S_, .f32⟩
  | .hbm, ⟨65, _⟩ => ⟨S100000x64, .f32⟩
  | .hbm, ⟨66, _⟩ => ⟨S1700000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x64, .f32⟩
  | .hbm, ⟨80, _⟩ => ⟨S1700000x1, .f32⟩
  | .hbm, ⟨81, _⟩ => ⟨S1700000x64, .f32⟩
  | .hbm, ⟨82, _⟩ => ⟨S1700000x64, .f32⟩
  | .hbm, ⟨83, _⟩ => ⟨S_, .f32⟩
  | .hbm, ⟨84, _⟩ => ⟨S100000x64, .f32⟩
  | .hbm, ⟨85, _⟩ => ⟨S1700000x1, .i32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000x64, .f32⟩
  | .hbm, ⟨99, _⟩ => ⟨S1700000x1, .f32⟩
  | .hbm, ⟨100, _⟩ => ⟨S1700000x64, .f32⟩
  | .hbm, ⟨101, _⟩ => ⟨S1700000x64, .f32⟩
  | .hbm, ⟨102, _⟩ => ⟨S_, .f32⟩
  | .hbm, ⟨103, _⟩ => ⟨S100000x64, .f32⟩
  | .hbm, ⟨104, _⟩ => ⟨S1700000x1, .i32⟩
  | .hbm, ⟨105, _⟩ => ⟨S100000x64, .f32⟩
  | .hbm, ⟨106, _⟩ => ⟨S1x64, .f32⟩
  | .hbm, ⟨107, _⟩ => ⟨S100000x64, .f32⟩
  | .local _ .vmem, ⟨0, _⟩ => ⟨S10000x32, .f32⟩
  | .local _ .vmem, ⟨1, _⟩ => ⟨S10000x32, .f32⟩
  | .local _ .vmem, ⟨2, _⟩ => ⟨S32x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x32_S32x64_S10000x64_1_0_0_1_n_n_wf : DotDims.WF S10000x32 S32x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 117
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x64, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .f32⟩
  | .hbm, ⟨61, _⟩ => ⟨S1700000x1, .f32⟩
  | .hbm, ⟨62, _⟩ => ⟨S1700000x64, .f32⟩
  | .hbm, ⟨63, _⟩ => ⟨S1700000x64, .f32⟩
  | .hbm, ⟨64, _⟩ => ⟨S_, .f32⟩
  | .hbm, ⟨65, _⟩ => ⟨S100000x64, .f32⟩
  | .hbm, ⟨66, _⟩ => ⟨S1700000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x64, .f32⟩
  | .hbm, ⟨84, _⟩ => ⟨S1700000x1, .f32⟩
  | .hbm, ⟨85, _⟩ => ⟨S1700000x64, .f32⟩
  | .hbm, ⟨86, _⟩ => ⟨S1700000x64, .f32⟩
  | .hbm, ⟨87, _⟩ => ⟨S_, .f32⟩
  | .hbm, ⟨88, _⟩ => ⟨S100000x64, .f32⟩
  | .hbm, ⟨89, _⟩ => ⟨S1700000x1, .i32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S100000x64, .f32⟩
  | .hbm, ⟨96, _⟩ => ⟨S100000x64, .f32⟩
  | .hbm, ⟨97, _⟩ => ⟨S100000x64, .f32⟩
  | .hbm, ⟨98, _⟩ => ⟨S_, .i32⟩
  | .hbm, ⟨99, _⟩ => ⟨S1700000, .i32⟩
  | .hbm, ⟨100, _⟩ => ⟨S1700000, .i1⟩
  | .hbm, ⟨101, _⟩ => ⟨S_, .i32⟩
  | .hbm, ⟨102, _⟩ => ⟨S1700000, .i32⟩
  | .hbm, ⟨103, _⟩ => ⟨S1700000, .i32⟩
  | .hbm, ⟨104, _⟩ => ⟨S1700000, .i32⟩
  | .hbm, ⟨105, _⟩ => ⟨S1700000x1, .i32⟩
  | .hbm, ⟨106, _⟩ => ⟨S1700000x64, .f32⟩
  | .hbm, ⟨107, _⟩ => ⟨S1700000x1, .f32⟩
  | .hbm, ⟨108, _⟩ => ⟨S1700000x64, .f32⟩
  | .hbm, ⟨109, _⟩ => ⟨S1700000x64, .f32⟩
  | .hbm, ⟨110, _⟩ => ⟨S_, .f32⟩
  | .hbm, ⟨111, _⟩ => ⟨S100000x64, .f32⟩
  | .hbm, ⟨112, _⟩ => ⟨S1700000x1, .i32⟩
  | .hbm, ⟨113, _⟩ => ⟨S100000x64, .f32⟩
  | .hbm, ⟨114, _⟩ => ⟨S1x64, .f32⟩
  | .hbm, ⟨115, _⟩ => ⟨S100000x64, .f32⟩
  | .hbm, ⟨116, _⟩ => ⟨S100000x64, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x32_S32x64_S100000x64_1_0_0_1_n_n_wf : DotDims.WF S100000x32 S32x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.ResultRun.lean ====
/-
  The kernel program's run with its result named. The program is six kernel regions among stretches of host
  operations; the contents of every buffer at each boundary between two segments are a fold from the launch
  memory (a host stretch applies its operations; a region replaces its windows' arrays by what its write-backs
  leave). Every weakly fair execution terminates with the result buffer at the LAST boundary's contents of it and
  the eight argument arrays as launched. What those contents are, as a function of the arguments, is read in the
  modules that import this one.
-/
import proofs.«138914_j13649406066714_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer holding
    the last boundary's contents of it (the sixth region's output array after its write-backs) and the arguments
    unchanged: the launch over the twelve segments, the final thread state (every unscoped buffer at the last
    boundary's contents) read against the final memory. -/
theorem run : θ_run defs (onTc (τ := τ) (main (F := F))) ⟨m, fun _ => 0, ρ⟩ (fun r => ∀ c : Dev nD,
      r.2.mem ((c.tc : Thread nD τ).loc main_v79) = W12 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v79 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.ResultRun

end
-- ==== Proof.Spec.lean ====
/-
  The graph-convolution encoder as functions of whole arrays, spelled with the host operations the two programs share.

  The edge list is a [2, 1600000] integer array; a row of it followed by 0 … 99999 (the self loops) is the list of
  sources (row 0) or of targets (row 1) of the 1700000 edges. An index below zero is read 100000 higher (`wrap`).
  The degree of a node is the number of edges it is the target of (a scatter-add of ones into zeros); its scale is
  rsqrt (max degree 1) where the degree is positive and 0 elsewhere; an edge's weight is the product of the scales of
  its two ends. One aggregation gathers the rows of a [100000, 64] array at the edges' sources, scales each by the
  edge's weight and scatter-adds them at the edges' targets into zeros.
-/
import proofs.«138914_j13649406066714_1_alg».proof.KernelIdeal

noncomputable section

namespace Cert.KernelIdeal.Spec

open Cert.KernelIdeal Cert.KernelIdeal.Facts₀ Idealize.ShloMosaic

variable {F : FTy → Type} [FloatOps F] [Facts]

/-- The contents of a buffer of shape `s` and element type `t`. -/
abbrev Arr (F : FTy → Type) (s : Shape) (t : EltTy) : Type := (⟨s, t⟩ : BufTy).Contents (Elt F)

/-- Row `r` of the edge list followed by the self loops 0 … 99999. -/
def ends (r : Fin 2 → Nat) (h : S2x1600000.Slices r S1x1600000) (e : Arr F S2x1600000 .i32) : Arr F S1700000 .i32 :=
  concatenate S1700000 0 [⟨S1600000, shapeCast S1600000 (extractStridedSlice S1x1600000 r e h) shapeCasts_S1x1600000_S1600000⟩, ⟨S100000, iotaInDim S100000 32 0⟩] concatenates_S1600000_S100000_S1700000_d0

/-- The edges' sources. -/
def src (e : Arr F S2x1600000 .i32) : Arr F S1700000 .i32 := ends ![0, 0] slices_S2x1600000_S1x1600000_0_0 e
/-- The edges' targets. -/
def dst (e : Arr F S2x1600000 .i32) : Arr F S1700000 .i32 := ends ![1, 0] slices_S2x1600000_S1x1600000_1_0 e

/-- A negative index is read 100000 higher. -/
def wrap (i : Arr F S1700000 .i32) : Arr F S1700000 .i32 :=
  select (cmpi .slt i (broadcastInDim S1700000 ![] bcast_S_S1700000 (constantI S_ 32 0#32)))
    (addi i (broadcastInDim S1700000 ![] bcast_S_S1700000 (constantI S_ 32 100000#32))) i

/-- The nodes' degrees: ones scatter-added at the edges' targets into zeros. -/
def deg (d : Arr F S1700000 .i32) : Arr F S100000 .f32 :=
  Host.scatterAdd scatter_S100000_S1700000x1_S1700000_n_0_0_1
    (broadcastInDim S100000 ![] bcast_S_S100000 (constant (F := F) S_ .f32 0x00000000#32))
    (broadcastInDim S1700000x1 ![0] bcast_S1700000_S1700000x1_0 d)
    (broadcastInDim S1700000 ![] bcast_S_S1700000 (constant (F := F) S_ .f32 0x3F800000#32))

/-- Where a node's degree is positive. -/
def pos (d : Arr F S1700000 .i32) : Arr F S100000 .i1 :=
  cmpf .ogt (deg d) (broadcastInDim S100000 ![] bcast_S_S100000 (constant (F := F) S_ .f32 0x00000000#32))

/-- rsqrt of the larger of the degree and one. -/
def rs (d : Arr F S1700000 .i32) : Arr F S100000 .f32 :=
  Host.rsqrt (maximumf (deg d) (broadcastInDim S100000 ![] bcast_S_S100000 (constant (F := F) S_ .f32 0x3F800000#32)))

/-- The nodes' scales: `r` where `p` holds, the scalar `z` elsewhere. -/
def scale (p : Arr F S100000 .i1) (r : Arr F S100000 .f32) (z : Arr F S_ .f32) : Arr F S100000 .f32 :=
  select p r (broadcastInDim S100000 ![] bcast_S_S100000 (id z))

/-- A bias vector as a [1, 64] row. -/
def row (b : Arr F S64 .f32) : Arr F S1x64 .f32 := shapeCast S1x64 b shapeCasts_S64_S1x64

/-- An edge's weight from the nodes' scales: the product of the scales of its two ends. -/
def weight (sc : Arr F S100000 .f32) (s d : Arr F S1700000 .i32) : Arr F S1700000 .f32 :=
  mulf (Host.gather gather_S100000_S1700000x1_S1700000_n_0_n_n_0_1_1 sc (broadcastInDim S1700000x1 ![0] bcast_S1700000_S1700000x1_0 (wrap s)))
    (Host.gather gather_S100000_S1700000x1_S1700000_n_0_n_n_0_1_1 sc (broadcastInDim S1700000x1 ![0] bcast_S1700000_S1700000x1_0 (wrap d)))

/-- One aggregation: the rows of `h` at the sources, each scaled by its edge's weight, scatter-added at the targets. -/
def aggr (s d : Arr F S1700000 .i32) (w : Arr F S1700000 .f32) (h : Arr F S100000x64 .f32) : Arr F S100000x64 .f32 :=
  Host.scatterAdd scatter_S100000x64_S1700000x1_S1700000x64_1_0_0_1
    (broadcastInDim S100000x64 ![] bcast_S_S100000x64 (constant (F := F) S_ .f32 0x00000000#32))
    (broadcastInDim S1700000x1 ![0] bcast_S1700000_S1700000x1_0 d)
    (mulf (Host.gather gather_S100000x64_S1700000x1_S1700000x64_1_0_n_n_0_1_164 h (broadcastInDim S1700000x1 ![0] bcast_S1700000_S1700000x1_0 (wrap s)))
      (broadcastInDim S1700000x64 ![0, 1] bcast_S1700000x1_S1700000x64_0_1 (broadcastInDim S1700000x1 ![0] bcast_S1700000_S1700000x1_0 w)))

end Cert.KernelIdeal.Spec

end
-- ==== Proof.HostRead.lean ====
/-
  The kernel program's host stretches, each read as functions of the buffers it finds (for any float values).
  Before the first region: the edges' sources and targets, the degrees' positivity mask and rsqrt, the zero scalar
  (first stretch); the nodes' scales (the outlined `where`, second stretch); the edges' weights (third stretch).
  Before each bias region: the aggregation of the preceding matrix product and the bias vector as a [1, 64] row.
  A stretch leaves every buffer it does not write as it was.
-/
import proofs.«138914_j13649406066714_1_alg».proof.Proof.Gen.KernelIdeal.Launch
import proofs.«138914_j13649406066714_1_alg».proof.Proof.Spec
import Idealize.ShloMosaic.Lib.StableHlo.Run

noncomputable section

namespace Cert.KernelIdeal.HostRead

open Cert.KernelIdeal Cert.KernelIdeal.Gen Cert.KernelIdeal.Facts₀ Idealize.ShloMosaic Idealize.ShloMosaic.TcCoe Idealize.SL.Sem Idealize.ShloMosaic.StableHlo

variable {F : FTy → Type} [FloatOps F]

/-- A buffer that no operation of a literal stretch writes keeps its contents: the stretch's written buffers listed,
    each compared with the buffer. -/
macro "kept_by " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable (W : Valuation τ sig (Elt F))

/-! ## Before the first region -/

theorem src0 : StableHlo.after (hostOps0 (F := F)) W (Proc.devRef .tc main_v3) = Spec.src (W (Proc.devRef .tc main_arg1)) := by
  simp only [hostOps0]; after_results; rfl
theorem dst0 : StableHlo.after (hostOps0 (F := F)) W (Proc.devRef .tc main_v6) = Spec.dst (W (Proc.devRef .tc main_arg1)) := by
  simp only [hostOps0]; after_results; rfl
theorem pos0 : StableHlo.after (hostOps0 (F := F)) W (Proc.devRef .tc main_v12) = Spec.pos (Spec.dst (W (Proc.devRef .tc main_arg1))) := by
  simp only [hostOps0]; after_results; rfl
theorem rs0 : StableHlo.after (hostOps0 (F := F)) W (Proc.devRef .tc main_v15) = Spec.rs (Spec.dst (W (Proc.devRef .tc main_arg1))) := by
  simp only [hostOps0]; after_results; rfl
theorem zero0 : StableHlo.after (hostOps0 (F := F)) W (Proc.devRef .tc main_cst_3) = constant (F := F) S_ .f32 0x00000000#32 := by
  simp only [hostOps0]; after_results

theorem scale1 : StableHlo.after (hostOps0_1 (F := F)) W (Proc.devRef .tc main_v16)
    = Spec.scale (W (Proc.devRef .tc main_v12)) (W (Proc.devRef .tc main_v15)) (W (Proc.devRef .tc main_cst_3)) := by
  simp only [hostOps0_1]; after_results; rfl

set_option maxHeartbeats 2000000 in
theorem weight2 : StableHlo.after (hostOps0_2 (F := F)) W (Proc.devRef .tc main_v31)
    = Spec.weight (W (Proc.devRef .tc main_v16)) (W (Proc.devRef .tc main_v3)) (W (Proc.devRef .tc main_v6)) := by
  simp only [hostOps0_2]; after_results_simp <;> rfl

/-! ## Before each bias region -/

set_option maxHeartbeats 2000000 in
theorem aggr1 : StableHlo.after (hostOps1 (F := F)) W (Proc.devRef .tc main_v45)
    = Spec.aggr (W (Proc.devRef .tc main_v3)) (W (Proc.devRef .tc main_v6)) (W (Proc.devRef .tc main_v31)) (W (Proc.devRef .tc main_v32)) := by
  simp only [hostOps1]; after_results_simp <;> rfl
theorem row1 : StableHlo.after (hostOps1 (F := F)) W (Proc.devRef .tc main_v46) = Spec.row (W (Proc.devRef .tc main_arg3)) := by
  simp only [hostOps1]; after_results; rfl
set_option maxHeartbeats 2000000 in
theorem aggr3 : StableHlo.after (hostOps3 (F := F)) W (Proc.devRef .tc main_v61)
    = Spec.aggr (W (Proc.devRef .tc main_v3)) (W (Proc.devRef .tc main_v6)) (W (Proc.devRef .tc main_v31)) (W (Proc.devRef .tc main_v48)) := by
  simp only [hostOps3]; after_results_simp <;> rfl
theorem row3 : StableHlo.after (hostOps3 (F := F)) W (Proc.devRef .tc main_v62) = Spec.row (W (Proc.devRef .tc main_arg5)) := by
  simp only [hostOps3]; after_results; rfl
set_option maxHeartbeats 2000000 in
theorem aggr5 : StableHlo.after (hostOps5 (F := F)) W (Proc.devRef .tc main_v77)
    = Spec.aggr (W (Proc.devRef .tc main_v3)) (W (Proc.devRef .tc main_v6)) (W (Proc.devRef .tc main_v31)) (W (Proc.devRef .tc main_v64)) := by
  simp only [hostOps5]; after_results_simp <;> rfl
theorem row5 : StableHlo.after (hostOps5 (F := F)) W (Proc.devRef .tc main_v78) = Spec.row (W (Proc.devRef .tc main_arg7)) := by
  simp only [hostOps5]; after_results; rfl

end Cert.KernelIdeal.HostRead

end
-- ==== Proof.Layers.lean ====
/-
  The encoder's dense steps over the extended reals, as functions of whole arrays, and the encoder itself.
  A matrix product's entry (r, j) is the sum over k of x[r, k] · w[k, j]; the bias step adds the bias row's entry j to
  entry (r, j); relu replaces a negative entry by zero. One layer is the aggregation (Spec) of the product of the node
  features with the layer's weight, plus the bias, with relu after the first two layers and none after the third.
-/
import proofs.«138914_j13649406066714_1_alg».proof.Proof.Spec
import Idealize.ShloMosaic.Lib.ValueIdx
import Idealize.ShloMosaic.PureOps.Ideal

noncomputable section

namespace Cert.KernelIdeal.Layers

open Cert.KernelIdeal Cert.KernelIdeal.Facts₀ Idealize.ShloMosaic
open Cert.KernelIdeal.Spec (Arr)

variable [Facts]

/-- The matrix product of a [100000, 32] array and a [32, 64] array. -/
def prod32 (x : Arr Ideal S100000x32 .f32) (w : Arr Ideal S32x64 .f32) : Arr Ideal S100000x64 .f32 :=
  fun i => ∑ k : Fin 32, x (ValueIdx.ix2 (i 0) k) * w (ValueIdx.ix2 k (i 1))

/-- The matrix product of a [100000, 64] array and a [64, 64] array. -/
def prod64 (x : Arr Ideal S100000x64 .f32) (w : Arr Ideal S64x64 .f32) : Arr Ideal S100000x64 .f32 :=
  fun i => ∑ k : Fin 64, x (ValueIdx.ix2 (i 0) k) * w (ValueIdx.ix2 k (i 1))

/-- Each row plus the bias row. -/
def bias (x : Arr Ideal S100000x64 .f32) (b : Arr Ideal S1x64 .f32) : Arr Ideal S100000x64 .f32 :=
  fun i => x i + b (ValueIdx.ix2 0 (i 1))

/-- Each row plus the bias row, negative entries replaced by zero. -/
def biasRelu (x : Arr Ideal S100000x64 .f32) (b : Arr Ideal S1x64 .f32) : Arr Ideal S100000x64 .f32 :=
  fun i => max (x i + b (ValueIdx.ix2 0 (i 1))) 0

/-- The three-layer encoder of the node features `x` over the graph `e`. -/
def encoder (x : Arr Ideal S100000x32 .f32) (e : Arr Ideal S2x1600000 .i32) (w1 : Arr Ideal S32x64 .f32) (b1 : Arr Ideal S64 .f32)
    (w2 : Arr Ideal S64x64 .f32) (b2 : Arr Ideal S64 .f32) (w3 : Arr Ideal S64x64 .f32) (b3 : Arr Ideal S64 .f32) : Arr Ideal S100000x64 .f32 :=
  let s := Spec.src e
  let d := Spec.dst e
  let wt := Spec.weight (Spec.scale (Spec.pos d) (Spec.rs d) (constant (F := Ideal) S_ .f32 0x00000000#32)) s d
  bias (Spec.aggr s d wt (prod64 (biasRelu (Spec.aggr s d wt (prod64 (biasRelu (Spec.aggr s d wt (prod32 x w1)) (Spec.row b1)) w2)) (Spec.row b2)) w3)) (Spec.row b3)

end Cert.KernelIdeal.Layers

end
-- ==== Proof.Region0.lean ====
/-
  Region 0 of the kernel program (a matrix product over row blocks), read as ONE function of the arrays it finds.
  The grid has ten points; point t stages rows 10000·t … 10000·t + 9999 of the [100000, 32] input and the whole
  [32, 64] weight, and writes back the same rows of the [100000, 64] output. Over the extended reals the narrowing of both
  operands is the identity and the product into a zero accumulator is the plain sum, so entry (r, j) of what the body
  stores is the sum over k of the block's entry (r, k) times the weight's entry (k, j). The ten row blocks tile the
  output, so after the region the output array is the matrix product of the two arrays, index by index.
-/
import proofs.«138914_j13649406066714_1_alg».proof.Proof.Gen.KernelIdeal.Frame
import proofs.«138914_j13649406066714_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Cert.KernelIdeal.Spec (Arr)
open Cert.KernelIdeal.Layers

variable (V : (c : Dev nD) → (b : Ref sig .tc) → Buf (Elt Ideal) ((c : Thread nD τ).loc b))

theorem hz : (![0, 0] : Fin 2 → Nat) = fun _ => 0 := funext fun a => by fin_cases a <;> rfl

/-- The block product's operand indices: the left operand's row is the output's row … -/
theorem lhs_row (i : S10000x64.Idx) (q : dot_S10000x32_S32x64_S10000x64_1_0_0_1_n_n.contr.Idx) : (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
/-- … and the right operand's column is the output's column. -/
theorem rhs_col (i : S10000x64.Idx) (q : dot_S10000x32_S32x64_S10000x64_1_0_0_1_n_n.contr.Idx) : (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-- What the body stores, at an entry of the block: the row of the input block against the column of the weight. -/
theorem pay_apply (x0 : Vec Ideal S10000x32 .f32) (x1 : Vec Ideal S32x64 .f32) (j : S10000x64.Idx) :
    k0_pay1 x0 x1 j = ∑ k : Fin 32, x0 (ValueIdx.ix2 (j 0) k) * x1 (ValueIdx.ix2 k (j 1)) := by
  unfold k0_pay1
  refine (Ideal.matmul_constant_zero_apply dot_S10000x32_S32x64_S10000x64_1_0_0_1_n_n none _ _ j).trans ?_
  rw [← Equiv.sum_comp (ValueIdx.contrEquiv1 dot_S10000x32_S32x64_S10000x64_1_0_0_1_n_n 32 rfl rfl).symm]
  refine Finset.sum_congr rfl fun k _ => ?_
  have hk := ValueIdx.contrEquiv1_symm_val dot_S10000x32_S32x64_S10000x64_1_0_0_1_n_n 32 rfl rfl k
  have el : dot_S10000x32_S32x64_S10000x64_1_0_0_1_n_n.lhsIdx j ((ValueIdx.contrEquiv1 dot_S10000x32_S32x64_S10000x64_1_0_0_1_n_n 32 rfl rfl).symm k) = ValueIdx.ix2 (j 0) k := funext fun a => Fin.ext (by
    match a with
    | ⟨0, _⟩ => exact lhs_row _ _
    | ⟨1, _⟩ => exact (dot_S10000x32_S32x64_S10000x64_1_0_0_1_n_n.lhsIdx_val_of_single rfl j _).trans hk)
  have er : dot_S10000x32_S32x64_S10000x64_1_0_0_1_n_n.rhsIdx j ((ValueIdx.contrEquiv1 dot_S10000x32_S32x64_S10000x64_1_0_0_1_n_n 32 rfl rfl).symm k) = ValueIdx.ix2 k (j 1) := funext fun a => Fin.ext (by
    match a with
    | ⟨0, _⟩ => exact (dot_S10000x32_S32x64_S10000x64_1_0_0_1_n_n.rhsIdx_val_of_single rfl j _).trans hk
    | ⟨1, _⟩ => exact rhs_col _ _)
  rw [ValueIdx.truncf_apply, ValueIdx.truncf_apply, el, er]
  rfl

/-- The index maps over the grid: the input and the output move together down the rows, the weight stays. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every row block is some point's. -/
theorem idx_onto : ∀ q : Fin 10, ∃ t : Fin cfg0.N, win0_2.index t = ![q.val, 0] :=
  (by decide +kernel : ∀ q : Fin 10, ∃ t : Fin grid0.N, win0_2.index t = ![q.val, 0])

/-- A block's sum is the whole product's entry once each factor is read where the block sits in its array. -/
theorem entry_eq (X : Arr Ideal S100000x32 .f32) (Wt : Arr Ideal S32x64 .f32) (x0 : Vec Ideal S10000x32 .f32) (x1 : Vec Ideal S32x64 .f32)
    (j : S10000x64.Idx) (i : S100000x64.Idx)
    (h0 : ∀ k : Fin 32, x0 (ValueIdx.ix2 (j 0) k) = X (ValueIdx.ix2 (i 0) k))
    (h1 : ∀ k : Fin 32, x1 (ValueIdx.ix2 k (j 1)) = Wt (ValueIdx.ix2 k (i 1))) :
    ∑ k : Fin 32, x0 (ValueIdx.ix2 (j 0) k) * x1 (ValueIdx.ix2 k (j 1)) = prod32 X Wt i := by
  unfold prod32
  exact Finset.sum_congr rfl fun k _ => by rw [h0 k, h1 k]

/-- What point `t` writes back is block `t` of the matrix product of the two arrays the region finds. -/
theorem flushed_eq (c : Dev nD) (t : Fin cfg0.N) :
    (dat0 V c).flushed 2 t = ((cfg0.win 2).blk t).view.read (Elt Ideal) (prod32 (V c main_arg0 : Arr Ideal S100000x32 .f32) (V c main_arg2 : Arr Ideal S32x64 .f32)) := by
  show (cfg0.win 2).cut (grid0.coords t) ((dat0 V c).after 2 t) = _
  rw [after0_2]
  unfold out0_2
  rw [View.canon_unit_zero hz]
  simp only [View.ld_unit_zero (S := S10000x32) hz, View.ld_unit_zero (S := S32x64) hz]
  obtain ⟨e0, e1, e2, e3, e4, e5⟩ := idx_facts t
  funext j
  refine (pay_apply (iblk0 V c 0 t) (iblk0 V c 1 t) j).trans
    (entry_eq (V c main_arg0) (V c main_arg2) (iblk0 V c 0 t) (iblk0 V c 1 t) j (((cfg0.win 2).blk t).view.emb j) (fun k => ?_) (fun k => ?_))
  · unfold iblk0
    rw [View.read_apply]
    show V c main_arg0 _ = V c main_arg0 _
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 32 + 1 * k.val = k.val; omega
  · unfold iblk0
    rw [View.read_apply]
    show V c main_arg2 _ = V c main_arg2 _
    refine congrArg (V c main_arg2) (funext fun a => Fin.ext ?_)
    match a with
    | ⟨0, _⟩ => show win0_1.index t (0 : Fin 2) * 32 + 1 * k.val = k.val; omega
    | ⟨1, _⟩ => show win0_1.index t (1 : Fin 2) * 64 + 1 * (j 1).val = win0_2.index t (1 : Fin 2) * 64 + 1 * (j 1).val; omega

/-- An index of the output array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole (Pipeline.arrRef spec0 2)).slice (win0_2.rect t)).set ↔ _
  rw [View.set_slice_whole, Rect.mem_set_unit]
  exact Iff.rfl

/-- The ten row blocks cover the output array: row r is in the block of point r / 10000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the region its output array is that function of the two arrays it found. -/
theorem value (c : Dev nD) : (dat0 V c).arrAt 2 cfg0.N = prod32 (V c main_arg0 : Arr Ideal S100000x32 .f32) (V c main_arg2 : Arr Ideal S32x64 .f32) :=
  (dat0 V c).arrAt_eq_of_cover 2 _ (fun t _ => flushed_eq V c t) cover

end Cert.KernelIdeal.Region0

end
-- ==== Proof.Region1.lean ====
/-
  Region 1 of the kernel program (bias and relu over row blocks), read as ONE function of the arrays it finds.
  The grid has ten points; point t stages rows 10000·t … 10000·t + 9999 of the [100000, 64] input and the whole
  [1, 64] bias row, and writes back the same rows of the output. Inside a block, entry (r, j) of what the body stores is
  the input's entry (r, j) plus the bias row's entry j, or zero if that is negative. The ten row blocks tile the output array, so
  after the region the output array is that function of the two arrays, index by index.
-/
import proofs.«138914_j13649406066714_1_alg».proof.Proof.Gen.KernelIdeal.Frame
import proofs.«138914_j13649406066714_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)
open Cert.KernelIdeal.Spec (Arr)
open Cert.KernelIdeal.Layers

variable (V : (c : Dev nD) → (b : Ref sig .tc) → Buf (Elt Ideal) ((c : Thread nD τ).loc b))

theorem hz : (![0, 0] : Fin 2 → Nat) = fun _ => 0 := funext fun a => by fin_cases a <;> rfl

/-- What the body stores, at an entry of the block. -/
theorem pay_apply (x0 : Vec Ideal S10000x64 .f32) (x1 : Vec Ideal S1x64 .f32) (j : S10000x64.Idx) :
    k1_pay1 x0 x1 j = max (x0 j + x1 (ValueIdx.ix2 0 (j 1))) 0 := by
  unfold k1_pay1
  rw [ValueIdx.maximumf_apply, ValueIdx.addf_apply, shapeCast_self, shapeCast_self, ValueIdx.broadcast_apply]
  have hb : broadcastTo S10000x64 x1 broadcasts_S1x64_S10000x64 j = x1 (ValueIdx.ix2 (0 : Fin 1) (j 1 : Fin 64)) :=
    broadcastTo_apply x1 broadcasts_S1x64_S10000x64 j _ (fun a => by match a with | ⟨0, _⟩ => rfl | ⟨1, _⟩ => rfl)
  rw [hb]
  exact congrArg (max _) Ideal.ofBits_zero_f32

/-- The index maps over the grid: the input and the output move together down the rows, the bias row stays. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every row block is some point's. -/
theorem idx_onto : ∀ q : Fin 10, ∃ t : Fin cfg1.N, win1_2.index t = ![q.val, 0] :=
  (by decide +kernel : ∀ q : Fin 10, ∃ t : Fin grid1.N, win1_2.index t = ![q.val, 0])

/-- What point `t` writes back is block `t` of the function of the two arrays the region finds. -/
theorem flushed_eq (c : Dev nD) (t : Fin cfg1.N) :
    (dat1 V c).flushed 2 t = ((cfg1.win 2).blk t).view.read (Elt Ideal) (biasRelu (V c main_v45 : Arr Ideal S100000x64 .f32) (V c main_v46 : Arr Ideal S1x64 .f32)) := by
  show (cfg1.win 2).cut (grid1.coords t) ((dat1 V c).after 2 t) = _
  rw [after1_2]
  unfold out1_2
  rw [View.canon_unit_zero hz]
  simp only [View.ld_unit_zero (S := S10000x64) hz, View.ld_unit_zero (S := S1x64) hz]
  obtain ⟨e0, e1, e2, e3, e4, e5⟩ := idx_facts t
  funext j
  refine (pay_apply (iblk1 V c 0 t) (iblk1 V c 1 t) j).trans ?_
  have h0 : (iblk1 V c 0 t : Vec Ideal S10000x64 .f32) j = (V c main_v45 : Arr Ideal S100000x64 .f32) (((cfg1.win 2).blk t).view.emb j) := by
    unfold iblk1
    rw [View.read_apply]
    show V c main_v45 _ = V c main_v45 _
    refine congrArg (V c main_v45) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : (iblk1 V c 1 t : Vec Ideal S1x64 .f32) (ValueIdx.ix2 0 (j 1)) = (V c main_v46 : Arr Ideal S1x64 .f32) (ValueIdx.ix2 0 ((((cfg1.win 2).blk t).view.emb j) 1)) := by
    unfold iblk1
    rw [View.read_apply]
    show V c main_v46 _ = V c main_v46 _
    refine congrArg (V c main_v46) (funext fun a => Fin.ext ?_)
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  rw [h0, h1]
  rfl

/-- An index of the output array is in point `t`'s block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole (Pipeline.arrRef spec1 2)).slice (win1_2.rect t)).set ↔ _
  rw [View.set_slice_whole, Rect.mem_set_unit]
  exact Iff.rfl

/-- The ten row blocks cover the output array: row r is in the block of point r / 10000. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the region its output array is that function of the two arrays it found. -/
theorem value (c : Dev nD) : (dat1 V c).arrAt 2 cfg1.N = biasRelu (V c main_v45 : Arr Ideal S100000x64 .f32) (V c main_v46 : Arr Ideal S1x64 .f32) :=
  (dat1 V c).arrAt_eq_of_cover 2 _ (fun t _ => flushed_eq V c t) cover

end Cert.KernelIdeal.Region1

end
-- ==== Proof.Region2.lean ====
/-
  Region 2 of the kernel program (a matrix product over row blocks), read as ONE function of the arrays it finds.
  The grid has ten points; point t stages rows 10000·t … 10000·t + 9999 of the [100000, 64] input and the whole
  [64, 64] weight, and writes back the same rows of the [100000, 64] output. Over the extended reals the narrowing of both
  operands is the identity and the product into a zero accumulator is the plain sum, so entry (r, j) of what the body
  stores is the sum over k of the block's entry (r, k) times the weight's entry (k, j). The ten row blocks tile the
  output, so after the region the output array is the matrix product of the two arrays, index by index.
-/
import proofs.«138914_j13649406066714_1_alg».proof.Proof.Gen.KernelIdeal.Frame
import proofs.«138914_j13649406066714_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)
open Cert.KernelIdeal.Spec (Arr)
open Cert.KernelIdeal.Layers

variable (V : (c : Dev nD) → (b : Ref sig .tc) → Buf (Elt Ideal) ((c : Thread nD τ).loc b))

theorem hz : (![0, 0] : Fin 2 → Nat) = fun _ => 0 := funext fun a => by fin_cases a <;> rfl

/-- The block product's operand indices: the left operand's row is the output's row … -/
theorem lhs_row (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and the right operand's column is the output's column. -/
theorem rhs_col (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- What the body stores, at an entry of the block: the row of the input block against the column of the weight. -/
theorem pay_apply (x0 : Vec Ideal S10000x64 .f32) (x1 : Vec Ideal S64x64 .f32) (j : S10000x64.Idx) :
    k2_pay1 x0 x1 j = ∑ k : Fin 64, x0 (ValueIdx.ix2 (j 0) k) * x1 (ValueIdx.ix2 k (j 1)) := by
  unfold k2_pay1
  refine (Ideal.matmul_constant_zero_apply dot_S10000x64_S64x64_S10000x64_1_0_0_1_n_n none _ _ j).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx j ((ValueIdx.contrEquiv1 dot_S10000x64_S64x64_S10000x64_1_0_0_1_n_n 64 rfl rfl).symm k) = ValueIdx.ix2 (j 0) k := funext fun a => Fin.ext (by
    match a with
    | ⟨0, _⟩ => exact lhs_row _ _
    | ⟨1, _⟩ => exact (dot_S10000x64_S64x64_S10000x64_1_0_0_1_n_n.lhsIdx_val_of_single rfl j _).trans hk)
  have er : dot_S10000x64_S64x64_S10000x64_1_0_0_1_n_n.rhsIdx j ((ValueIdx.contrEquiv1 dot_S10000x64_S64x64_S10000x64_1_0_0_1_n_n 64 rfl rfl).symm k) = ValueIdx.ix2 k (j 1) := funext fun a => Fin.ext (by
    match a with
    | ⟨0, _⟩ => exact (dot_S10000x64_S64x64_S10000x64_1_0_0_1_n_n.rhsIdx_val_of_single rfl j _).trans hk
    | ⟨1, _⟩ => exact rhs_col _ _)
  rw [ValueIdx.truncf_apply, ValueIdx.truncf_apply, el, er, shapeCast_self]
  rfl

/-- The index maps over the grid: the input and the output move together down the rows, the weight stays. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every row block is some point's. -/
theorem idx_onto : ∀ q : Fin 10, ∃ t : Fin cfg2.N, win2_2.index t = ![q.val, 0] :=
  (by decide +kernel : ∀ q : Fin 10, ∃ t : Fin grid2.N, win2_2.index t = ![q.val, 0])

/-- A block's sum is the whole product's entry once each factor is read where the block sits in its array. -/
theorem entry_eq (X : Arr Ideal S100000x64 .f32) (Wt : Arr Ideal S64x64 .f32) (x0 : Vec Ideal S10000x64 .f32) (x1 : Vec Ideal S64x64 .f32)
    (j : S10000x64.Idx) (i : S100000x64.Idx)
    (h0 : ∀ k : Fin 64, x0 (ValueIdx.ix2 (j 0) k) = X (ValueIdx.ix2 (i 0) k))
    (h1 : ∀ k : Fin 64, x1 (ValueIdx.ix2 k (j 1)) = Wt (ValueIdx.ix2 k (i 1))) :
    ∑ k : Fin 64, x0 (ValueIdx.ix2 (j 0) k) * x1 (ValueIdx.ix2 k (j 1)) = prod64 X Wt i := by
  unfold prod64
  exact Finset.sum_congr rfl fun k _ => by rw [h0 k, h1 k]

/-- What point `t` writes back is block `t` of the matrix product of the two arrays the region finds. -/
theorem flushed_eq (c : Dev nD) (t : Fin cfg2.N) :
    (dat2 V c).flushed 2 t = ((cfg2.win 2).blk t).view.read (Elt Ideal) (prod64 (V c main_v47 : Arr Ideal S100000x64 .f32) (V c main_arg4 : Arr Ideal S64x64 .f32)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  obtain ⟨e0, e1, e2, e3, e4, e5⟩ := idx_facts t
  funext j
  refine (pay_apply (iblk2 V c 0 t) (iblk2 V c 1 t) j).trans
    (entry_eq (V c main_v47) (V c main_arg4) (iblk2 V c 0 t) (iblk2 V c 1 t) j (((cfg2.win 2).blk t).view.emb j) (fun k => ?_) (fun k => ?_))
  · unfold iblk2
    rw [View.read_apply]
    show V c main_v47 _ = V c main_v47 _
    refine congrArg (V c main_v47) (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * k.val = k.val; omega
  · unfold iblk2
    rw [View.read_apply]
    show V c main_arg4 _ = V c main_arg4 _
    refine congrArg (V c main_arg4) (funext fun a => Fin.ext ?_)
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega

/-- An index of the output array is in point `t`'s block iff each coordinate is in the block's range on its axis. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole (Pipeline.arrRef spec2 2)).slice (win2_2.rect t)).set ↔ _
  rw [View.set_slice_whole, Rect.mem_set_unit]
  exact Iff.rfl

/-- The ten row blocks cover the output array: row r is in the block of point r / 10000. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- After the region its output array is that function of the two arrays it found. -/
theorem value (c : Dev nD) : (dat2 V c).arrAt 2 cfg2.N = prod64 (V c main_v47 : Arr Ideal S100000x64 .f32) (V c main_arg4 : Arr Ideal S64x64 .f32) :=
  (dat2 V c).arrAt_eq_of_cover 2 _ (fun t _ => flushed_eq V c t) cover

end Cert.KernelIdeal.Region2

end
-- ==== Proof.Region3.lean ====
/-
  Region 3 of the kernel program (bias and relu over row blocks), read as ONE function of the arrays it finds.
  The grid has ten points; point t stages rows 10000·t … 10000·t + 9999 of the [100000, 64] input and the whole
  [1, 64] bias row, and writes back the same rows of the output. Inside a block, entry (r, j) of what the body stores is
  the input's entry (r, j) plus the bias row's entry j, or zero if that is negative. The ten row blocks tile the output array, so
  after the region the output array is that function of the two arrays, index by index.
-/
import proofs.«138914_j13649406066714_1_alg».proof.Proof.Gen.KernelIdeal.Frame
import proofs.«138914_j13649406066714_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.SL.Sem
open Idealize.ShloMosaic.Pipeline (Dat)
open Cert.KernelIdeal.Spec (Arr)
open Cert.KernelIdeal.Layers

variable (V : (c : Dev nD) → (b : Ref sig .tc) → Buf (Elt Ideal) ((c : Thread nD τ).loc b))

theorem hz : (![0, 0] : Fin 2 → Nat) = fun _ => 0 := funext fun a => by fin_cases a <;> rfl

/-- What the body stores, at an entry of the block. -/
theorem pay_apply (x0 : Vec Ideal S10000x64 .f32) (x1 : Vec Ideal S1x64 .f32) (j : S10000x64.Idx) :
    k3_pay1 x0 x1 j = max (x0 j + x1 (ValueIdx.ix2 0 (j 1))) 0 := by
  unfold k3_pay1
  rw [ValueIdx.maximumf_apply, ValueIdx.addf_apply, shapeCast_self, shapeCast_self, ValueIdx.broadcast_apply]
  have hb : broadcastTo S10000x64 x1 broadcasts_S1x64_S10000x64 j = x1 (ValueIdx.ix2 (0 : Fin 1) (j 1 : Fin 64)) :=
    broadcastTo_apply x1 broadcasts_S1x64_S10000x64 j _ (fun a => by match a with | ⟨0, _⟩ => rfl | ⟨1, _⟩ => rfl)
  rw [hb]
  exact congrArg (max _) Ideal.ofBits_zero_f32

/-- The index maps over the grid: the input and the output move together down the rows, the bias row stays. -/
theorem idx_facts : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every row block is some point's. -/
theorem idx_onto : ∀ q : Fin 10, ∃ t : Fin cfg3.N, win3_2.index t = ![q.val, 0] :=
  (by decide +kernel : ∀ q : Fin 10, ∃ t : Fin grid3.N, win3_2.index t = ![q.val, 0])

/-- What point `t` writes back is block `t` of the function of the two arrays the region finds. -/
theorem flushed_eq (c : Dev nD) (t : Fin cfg3.N) :
    (dat3 V c).flushed 2 t = ((cfg3.win 2).blk t).view.read (Elt Ideal) (biasRelu (V c main_v61 : Arr Ideal S100000x64 .f32) (V c main_v62 : Arr Ideal S1x64 .f32)) := by
  show (cfg3.win 2).cut (grid3.coords t) ((dat3 V c).after 2 t) = _
  rw [after3_2]
  unfold out3_2
  rw [View.canon_unit_zero hz]
  simp only [View.ld_unit_zero (S := S10000x64) hz, View.ld_unit_zero (S := S1x64) hz]
  obtain ⟨e0, e1, e2, e3, e4, e5⟩ := idx_facts t
  funext j
  refine (pay_apply (iblk3 V c 0 t) (iblk3 V c 1 t) j).trans ?_
  have h0 : (iblk3 V c 0 t : Vec Ideal S10000x64 .f32) j = (V c main_v61 : Arr Ideal S100000x64 .f32) (((cfg3.win 2).blk t).view.emb j) := by
    unfold iblk3
    rw [View.read_apply]
    show V c main_v61 _ = V c main_v61 _
    refine congrArg (V c main_v61) (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  have h1 : (iblk3 V c 1 t : Vec Ideal S1x64 .f32) (ValueIdx.ix2 0 (j 1)) = (V c main_v62 : Arr Ideal S1x64 .f32) (ValueIdx.ix2 0 ((((cfg3.win 2).blk t).view.emb j) 1)) := by
    unfold iblk3
    rw [View.read_apply]
    show V c main_v62 _ = V c main_v62 _
    refine congrArg (V c main_v62) (funext fun a => Fin.ext ?_)
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega
  rw [h0, h1]
  rfl

/-- An index of the output array is in point `t`'s block iff each coordinate is in the block's range on its axis. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole (Pipeline.arrRef spec3 2)).slice (win3_2.rect t)).set ↔ _
  rw [View.set_slice_whole, Rect.mem_set_unit]
  exact Iff.rfl

/-- The ten row blocks cover the output array: row r is in the block of point r / 10000. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := idx_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- After the region its output array is that function of the two arrays it found. -/
theorem value (c : Dev nD) : (dat3 V c).arrAt 2 cfg3.N = biasRelu (V c main_v61 : Arr Ideal S100000x64 .f32) (V c main_v62 : Arr Ideal S1x64 .f32) :=
  (dat3 V c).arrAt_eq_of_cover 2 _ (fun t _ => flushed_eq V c t) cover

end Cert.KernelIdeal.Region3

end
-- ==== Proof.Region4.lean ====
/-
  Region 4 of the kernel program (a matrix product over row blocks), read as ONE function of the arrays it finds.
  The grid has ten points; point t stages rows 10000·t … 10000·t + 9999 of the [100000, 64] input and the whole
  [64, 64] weight, and writes back the same rows of the [100000, 64] output. Over the extended reals the narrowing of both
  operands is the identity and the product into a zero accumulator is the plain sum, so entry (r, j) of what the body
  stores is the sum over k of the block's entry (r, k) times the weight's entry (k, j). The ten row blocks tile the
  output, so after the region the output array is the matrix product of the two arrays, index by index.
-/
import proofs.«138914_j13649406066714_1_alg».proof.Proof.Gen.KernelIdeal.Frame
import proofs.«138914_j13649406066714_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.Region4

open Cert.KernelIdeal Cert.KernelIdeal.Gen Idealize.ShloMosaic Idealize.ShloMosaic.TcCoe Idealize.SL.Sem
open Idealize.ShloMosaic.Pipeline (Dat)
open Cert.KernelIdeal.Spec (Arr)
open Cert.KernelIdeal.Layers

variable (V : (c : Dev nD) → (b : Ref sig .tc) → Buf (Elt Ideal) ((c : Thread nD τ).loc b))

theorem hz : (![0, 0] : Fin 2 → Nat) = fun _ => 0 := funext fun a => by fin_cases a <;> rfl

/-- The block product's operand indices: the left operand's row is the output's row … -/
theorem lhs_row (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and the right operand's column is the output's column. -/
theorem rhs_col (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- What the body stores, at an entry of the block: the row of the input block against the column of the weight. -/
theorem pay_apply (x0 : Vec Ideal S10000x64 .f32) (x1 : Vec Ideal S64x64 .f32) (j : S10000x64.Idx) :
    k4_pay1 x0 x1 j = ∑ k : Fin 64, x0 (ValueIdx.ix2 (j 0) k) * x1 (ValueIdx.ix2 k (j 1)) := by
  unfold k4_pay1
  refine (Ideal.matmul_constant_zero_apply dot_S10000x64_S64x64_S10000x64_1_0_0_1_n_n none _ _ j).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx j ((ValueIdx.contrEquiv1 dot_S10000x64_S64x64_S10000x64_1_0_0_1_n_n 64 rfl rfl).symm k) = ValueIdx.ix2 (j 0) k := funext fun a => Fin.ext (by
    match a with
    | ⟨0, _⟩ => exact lhs_row _ _
    | ⟨1, _⟩ => exact (dot_S10000x64_S64x64_S10000x64_1_0_0_1_n_n.lhsIdx_val_of_single rfl j _).trans hk)
  have er : dot_S10000x64_S64x64_S10000x64_1_0_0_1_n_n.rhsIdx j ((ValueIdx.contrEquiv1 dot_S10000x64_S64x64_S10000x64_1_0_0_1_n_n 64 rfl rfl).symm k) = ValueIdx.ix2 k (j 1) := funext fun a => Fin.ext (by
    match a with
    | ⟨0, _⟩ => exact (dot_S10000x64_S64x64_S10000x64_1_0_0_1_n_n.rhsIdx_val_of_single rfl j _).trans hk
    | ⟨1, _⟩ => exact rhs_col _ _)
  rw [ValueIdx.truncf_apply, ValueIdx.truncf_apply, el, er, shapeCast_self]
  rfl

/-- The index maps over the grid: the input and the output move together down the rows, the weight stays. -/
theorem idx_facts : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) ≤ 9 :=
  (by decide +kernel : ∀ t : Fin grid4.N, _)

/-- Every row block is some point's. -/
theorem idx_onto : ∀ q : Fin 10, ∃ t : Fin cfg4.N, win4_2.index t = ![q.val, 0] :=
  (by decide +kernel : ∀ q : Fin 10, ∃ t : Fin grid4.N, win4_2.index t = ![q.val, 0])

/-- A block's sum is the whole product's entry once each factor is read where the block sits in its array. -/
theorem entry_eq (X : Arr Ideal S100000x64 .f32) (Wt : Arr Ideal S64x64 .f32) (x0 : Vec Ideal S10000x64 .f32) (x1 : Vec Ideal S64x64 .f32)
    (j : S10000x64.Idx) (i : S100000x64.Idx)
    (h0 : ∀ k : Fin 64, x0 (ValueIdx.ix2 (j 0) k) = X (ValueIdx.ix2 (i 0) k))
    (h1 : ∀ k : Fin 64, x1 (ValueIdx.ix2 k (j 1)) = Wt (ValueIdx.ix2 k (i 1))) :
    ∑ k : Fin 64, x0 (ValueIdx.ix2 (j 0) k) * x1 (ValueIdx.ix2 k (j 1)) = prod64 X Wt i := by
  unfold prod64
  exact Finset.sum_congr rfl fun k _ => by rw [h0 k, h1 k]

/-- What point `t` writes back is block `t` of the matrix product of the two arrays the region finds. -/
theorem flushed_eq (c : Dev nD) (t : Fin cfg4.N) :
    (dat4 V c).flushed 2 t = ((cfg4.win 2).blk t).view.read (Elt Ideal) (prod64 (V c main_v63 : Arr Ideal S100000x64 .f32) (V c main_arg6 : Arr Ideal S64x64 .f32)) := by
  show (cfg4.win 2).cut (grid4.coords t) ((dat4 V c).after 2 t) = _
  rw [after4_2]
  unfold out4_2
  rw [View.canon_unit_zero hz]
  simp only [View.ld_unit_zero (S := S10000x64) hz, View.ld_unit_zero (S := S64x64) hz]
  obtain ⟨e0, e1, e2, e3, e4, e5⟩ := idx_facts t
  funext j
  refine (pay_apply (iblk4 V c 0 t) (iblk4 V c 1 t) j).trans
    (entry_eq (V c main_v63) (V c main_arg6) (iblk4 V c 0 t) (iblk4 V c 1 t) j (((cfg4.win 2).blk t).view.emb j) (fun k => ?_) (fun k => ?_))
  · unfold iblk4
    rw [View.read_apply]
    show V c main_v63 _ = V c main_v63 _
    refine congrArg (V c main_v63) (funext fun a => Fin.ext ?_)
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 64 + 1 * k.val = k.val; omega
  · unfold iblk4
    rw [View.read_apply]
    show V c main_arg6 _ = V c main_arg6 _
    refine congrArg (V c main_arg6) (funext fun a => Fin.ext ?_)
    match a with
    | ⟨0, _⟩ => show win4_1.index t (0 : Fin 2) * 64 + 1 * k.val = k.val; omega
    | ⟨1, _⟩ => show win4_1.index t (1 : Fin 2) * 64 + 1 * (j 1).val = win4_2.index t (1 : Fin 2) * 64 + 1 * (j 1).val; omega

/-- An index of the output array is in point `t`'s block iff each coordinate is in the block's range on its axis. -/
theorem mem_blk (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole (Pipeline.arrRef spec4 2)).slice (win4_2.rect t)).set ↔ _
  rw [View.set_slice_whole, Rect.mem_set_unit]
  exact Iff.rfl

/-- The ten row blocks cover the output array: row r is in the block of point r / 10000. -/
theorem cover (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ := idx_onto ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- After the region its output array is that function of the two arrays it found. -/
theorem value (c : Dev nD) : (dat4 V c).arrAt 2 cfg4.N = prod64 (V c main_v63 : Arr Ideal S100000x64 .f32) (V c main_arg6 : Arr Ideal S64x64 .f32) :=
  (dat4 V c).arrAt_eq_of_cover 2 _ (fun t _ => flushed_eq V c t) cover

end Cert.KernelIdeal.Region4

end
-- ==== Proof.Region5.lean ====
/-
  Region 5 of the kernel program (bias over row blocks), read as ONE function of the arrays it finds.
  The grid has ten points; point t stages rows 10000·t … 10000·t + 9999 of the [100000, 64] input and the whole
  [1, 64] bias row, and writes back the same rows of the output. Inside a block, entry (r, j) of what the body stores is
  the input's entry (r, j) plus the bias row's entry j. The ten row blocks tile the output array, so
  after the region the output array is that function of the two arrays, index by index.
-/
import proofs.«138914_j13649406066714_1_alg».proof.Proof.Gen.KernelIdeal.Frame
import proofs.«138914_j13649406066714_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.Region5

open Cert.KernelIdeal Cert.KernelIdeal.Gen Idealize.ShloMosaic Idealize.ShloMosaic.TcCoe Idealize.SL.Sem
open Idealize.ShloMosaic.Pipeline (Dat)
open Cert.KernelIdeal.Spec (Arr)
open Cert.KernelIdeal.Layers

variable (V : (c : Dev nD) → (b : Ref sig .tc) → Buf (Elt Ideal) ((c : Thread nD τ).loc b))

theorem hz : (![0, 0] : Fin 2 → Nat) = fun _ => 0 := funext fun a => by fin_cases a <;> rfl

/-- What the body stores, at an entry of the block. -/
theorem pay_apply (x0 : Vec Ideal S10000x64 .f32) (x1 : Vec Ideal S1x64 .f32) (j : S10000x64.Idx) :
    k5_pay1 x0 x1 j = x0 j + x1 (ValueIdx.ix2 0 (j 1)) := by
  unfold k5_pay1
  rw [ValueIdx.addf_apply, shapeCast_self, shapeCast_self]
  have hb : broadcastTo S10000x64 x1 broadcasts_S1x64_S10000x64 j = x1 (ValueIdx.ix2 (0 : Fin 1) (j 1 : Fin 64)) :=
    broadcastTo_apply x1 broadcasts_S1x64_S10000x64 j _ (fun a => by match a with | ⟨0, _⟩ => rfl | ⟨1, _⟩ => rfl)
  rw [hb]

/-- The index maps over the grid: the input and the output move together down the rows, the bias row stays. -/
theorem idx_facts : ∀ t : Fin cfg5.N, win5_0.index t (0 : Fin 2) = win5_2.index t (0 : Fin 2)
    ∧ win5_0.index t (1 : Fin 2) = 0 ∧ win5_1.index t (0 : Fin 2) = 0 ∧ win5_1.index t (1 : Fin 2) = 0
    ∧ win5_2.index t (1 : Fin 2) = 0 ∧ win5_2.index t (0 : Fin 2) ≤ 9 :=
  (by decide +kernel : ∀ t : Fin grid5.N, _)

/-- Every row block is some point's. -/
theorem idx_onto : ∀ q : Fin 10, ∃ t : Fin cfg5.N, win5_2.index t = ![q.val, 0] :=
  (by decide +kernel : ∀ q : Fin 10, ∃ t : Fin grid5.N, win5_2.index t = ![q.val, 0])

/-- What point `t` writes back is block `t` of the function of the two arrays the region finds. -/
theorem flushed_eq (c : Dev nD) (t : Fin cfg5.N) :
    (dat5 V c).flushed 2 t = ((cfg5.win 2).blk t).view.read (Elt Ideal) (bias (V c main_v77 : Arr Ideal S100000x64 .f32) (V c main_v78 : Arr Ideal S1x64 .f32)) := by
  show (cfg5.win 2).cut (grid5.coords t) ((dat5 V c).after 2 t) = _
  rw [after5_2]
  unfold out5_2
  rw [View.canon_unit_zero hz]
  simp only [View.ld_unit_zero (S := S10000x64) hz, View.ld_unit_zero (S := S1x64) hz]
  obtain ⟨e0, e1, e2, e3, e4, e5⟩ := idx_facts t
  funext j
  refine (pay_apply (iblk5 V c 0 t) (iblk5 V c 1 t) j).trans ?_
  have h0 : (iblk5 V c 0 t : Vec Ideal S10000x64 .f32) j = (V c main_v77 : Arr Ideal S100000x64 .f32) (((cfg5.win 2).blk t).view.emb j) := by
    unfold iblk5
    rw [View.read_apply]
    show V c main_v77 _ = V c main_v77 _
    refine congrArg (V c main_v77) (funext fun a => Fin.ext ?_)
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 64 + 1 * (j 1).val = win5_2.index t (1 : Fin 2) * 64 + 1 * (j 1).val; omega
  have h1 : (iblk5 V c 1 t : Vec Ideal S1x64 .f32) (ValueIdx.ix2 0 (j 1)) = (V c main_v78 : Arr Ideal S1x64 .f32) (ValueIdx.ix2 0 ((((cfg5.win 2).blk t).view.emb j) 1)) := by
    unfold iblk5
    rw [View.read_apply]
    show V c main_v78 _ = V c main_v78 _
    refine congrArg (V c main_v78) (funext fun a => Fin.ext ?_)
    match a with
    | ⟨0, _⟩ => show win5_1.index t (0 : Fin 2) * 1 + 1 * 0 = 0; omega
    | ⟨1, _⟩ => show win5_1.index t (1 : Fin 2) * 64 + 1 * (j 1).val = win5_2.index t (1 : Fin 2) * 64 + 1 * (j 1).val; omega
  rw [h0, h1]
  rfl

/-- An index of the output array is in point `t`'s block iff each coordinate is in the block's range on its axis. -/
theorem mem_blk (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole (Pipeline.arrRef spec5 2)).slice (win5_2.rect t)).set ↔ _
  rw [View.set_slice_whole, Rect.mem_set_unit]
  exact Iff.rfl

/-- The ten row blocks cover the output array: row r is in the block of point r / 10000. -/
theorem cover (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  obtain ⟨t, ht⟩ := idx_onto ⟨(i 0).val / 10000, by omega⟩
  have q0 : win5_2.index t (0 : Fin 2) = (i 0).val / 10000 := congrFun ht 0
  have q1 : win5_2.index t (1 : Fin 2) = 0 := congrFun ht 1
  refine ⟨t, flush5_2 t, ?_⟩
  rw [mem_blk]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- After the region its output array is that function of the two arrays it found. -/
theorem value (c : Dev nD) : (dat5 V c).arrAt 2 cfg5.N = bias (V c main_v77 : Arr Ideal S100000x64 .f32) (V c main_v78 : Arr Ideal S1x64 .f32) :=
  (dat5 V c).arrAt_eq_of_cover 2 _ (fun t _ => flushed_eq V c t) cover

end Cert.KernelIdeal.Region5

end
-- ==== Proof.Fold.lean ====
/-
  What the kernel program's result buffer holds after the run: the encoder (Layers) of the eight argument arrays.
  The contents of the buffers at the boundaries between the twelve segments are a fold from the launch memory. Read
  forwards: the first three host stretches leave the edges' sources, targets and weights; each matrix-product region
  leaves the product of what it found (Region0, Region2, Region4); each host stretch before a bias region leaves the
  aggregation of that product and the bias as a row; each bias region leaves the sum, with relu in the first two
  (Region1, Region3, Region5). The sources, targets, weights and the arguments are written by no later segment, so
  every segment finds them as the first three stretches left them.
-/
import proofs.«138914_j13649406066714_1_alg».proof.Proof.HostRead
import proofs.«138914_j13649406066714_1_alg».proof.Proof.Region0
import proofs.«138914_j13649406066714_1_alg».proof.Proof.Region1
import proofs.«138914_j13649406066714_1_alg».proof.Proof.Region2
import proofs.«138914_j13649406066714_1_alg».proof.Proof.Region3
import proofs.«138914_j13649406066714_1_alg».proof.Proof.Region4
import proofs.«138914_j13649406066714_1_alg».proof.Proof.Region5

set_option maxRecDepth 16384

noncomputable section

namespace Cert.KernelIdeal.Fold

open Cert.KernelIdeal Cert.KernelIdeal.Gen Cert.KernelIdeal.Facts₀ Idealize.ShloMosaic Idealize.ShloMosaic.TcCoe Idealize.SL.Sem Idealize.ShloMosaic.StableHlo
open Cert.KernelIdeal.Spec (Arr)
open Cert.KernelIdeal.Layers Cert.KernelIdeal.HostRead

variable (m : (ℓ : Loc nD τ sig) → Buf (Elt Ideal) ℓ) (ρ : Dev nD → PrngReg) (c : Dev nD)

/-- Two valuations agree on a list of buffers. -/
def Same (L : List (Ref sig .tc)) (W W' : Valuation τ sig (Elt Ideal)) : Prop :=
  ∀ b ∈ L, W' (Proc.devRef .tc b) = W (Proc.devRef .tc b)

theorem Same.trans {L : List (Ref sig .tc)} {W W' W'' : Valuation τ sig (Elt Ideal)} (h : Same L W W') (h' : Same L W' W'') : Same L W W'' :=
  fun b hb => (h' b hb).trans (h b hb)

/-- The arguments. -/
def argBufs : List (Ref sig .tc) := [main_arg0, main_arg1, main_arg2, main_arg3, main_arg4, main_arg5, main_arg6, main_arg7]
/-- What every segment after the third host stretch reads and none writes: the edges' sources, targets and weights, and the biases and the later weights. -/
def carried : List (Ref sig .tc) := [main_v3, main_v6, main_v31, main_arg3, main_arg4, main_arg5, main_arg6, main_arg7]

/-! ## The first three host stretches keep the arguments -/

theorem args1 : Same argBufs (W0 m ρ c) (W1 m ρ c) := by
  intro b hb
  simp only [argBufs, List.mem_cons, List.mem_nil_iff, or_false] at hb
  rcases hb with rfl | rfl | rfl | rfl | rfl | rfl | rfl | rfl <;> kept_by hostOps0
theorem args2 : Same argBufs (W1 m ρ c) (W2 m ρ c) := by
  intro b hb
  simp only [argBufs, List.mem_cons, List.mem_nil_iff, or_false] at hb
  rcases hb with rfl | rfl | rfl | rfl | rfl | rfl | rfl | rfl <;> kept_by hostOps0_1
theorem args3 : Same argBufs (W2 m ρ c) (W3 m ρ c) := by
  intro b hb
  simp only [argBufs, List.mem_cons, List.mem_nil_iff, or_false] at hb
  rcases hb with rfl | rfl | rfl | rfl | rfl | rfl | rfl | rfl <;> kept_by hostOps0_2

/-- At the first region's entry each argument is as launched. -/
theorem arg_at3 (b : Ref sig .tc) (hb : b ∈ argBufs) : W3 m ρ c (Proc.devRef .tc b) = W0 m ρ c (Proc.devRef .tc b) :=
  ((args1 m ρ c).trans ((args2 m ρ c).trans (args3 m ρ c))) b hb

/-! ## Every later segment keeps the carried buffers -/

theorem keep4 : Same carried (W3 m ρ c) (W4 m ρ c) := by
  intro b hb
  simp only [carried, List.mem_cons, List.mem_nil_iff, or_false] at hb
  rcases hb with rfl | rfl | rfl | rfl | rfl | rfl | rfl | rfl <;> exact W4_of_ne m ρ c _ (by decide)
theorem keep5 : Same carried (W4 m ρ c) (W5 m ρ c) := by
  intro b hb
  simp only [carried, List.mem_cons, List.mem_nil_iff, or_false] at hb
  rcases hb with rfl | rfl | rfl | rfl | rfl | rfl | rfl | rfl <;> kept_by hostOps1
theorem keep6 : Same carried (W5 m ρ c) (W6 m ρ c) := by
  intro b hb
  simp only [carried, List.mem_cons, List.mem_nil_iff, or_false] at hb
  rcases hb with rfl | rfl | rfl | rfl | rfl | rfl | rfl | rfl <;> exact W6_of_ne m ρ c _ (by decide)
theorem keep7 : Same carried (W6 m ρ c) (W7 m ρ c) := by
  intro b hb
  simp only [carried, List.mem_cons, List.mem_nil_iff, or_false] at hb
  rcases hb with rfl | rfl | rfl | rfl | rfl | rfl | rfl | rfl <;> first
    | exact W7_of_ne m ρ c _ (by decide)
    | exact (W7_arr m ρ c 1).trans (((dat2 (V6 m ρ) c).arrAt_in 1 rfl _).trans (A_eq2 (V6 m ρ) c 1))
theorem keep8 : Same carried (W7 m ρ c) (W8 m ρ c) := by
  intro b hb
  simp only [carried, List.mem_cons, List.mem_nil_iff, or_false] at hb
  rcases hb with rfl | rfl | rfl | rfl | rfl | rfl | rfl | rfl <;> kept_by hostOps3
theorem keep9 : Same carried (W8 m ρ c) (W9 m ρ c) := by
  intro b hb
  simp only [carried, List.mem_cons, List.mem_nil_iff, or_false] at hb
  rcases hb with rfl | rfl | rfl | rfl | rfl | rfl | rfl | rfl <;> exact W9_of_ne m ρ c _ (by decide)
theorem keep10 : Same carried (W9 m ρ c) (W10 m ρ c) := by
  intro b hb
  simp only [carried, List.mem_cons, List.mem_nil_iff, or_false] at hb
  rcases hb with rfl | rfl | rfl | rfl | rfl | rfl | rfl | rfl <;> first
    | exact W10_of_ne m ρ c _ (by decide)
    | exact (W10_arr m ρ c 1).trans (((dat4 (V9 m ρ) c).arrAt_in 1 rfl _).trans (A_eq4 (V9 m ρ) c 1))

theorem upto4 : Same carried (W3 m ρ c) (W4 m ρ c) := keep4 m ρ c
theorem upto6 : Same carried (W3 m ρ c) (W6 m ρ c) := (upto4 m ρ c).trans ((keep5 m ρ c).trans (keep6 m ρ c))
theorem upto7 : Same carried (W3 m ρ c) (W7 m ρ c) := (upto6 m ρ c).trans (keep7 m ρ c)
theorem upto9 : Same carried (W3 m ρ c) (W9 m ρ c) := (upto7 m ρ c).trans ((keep8 m ρ c).trans (keep9 m ρ c))
theorem upto10 : Same carried (W3 m ρ c) (W10 m ρ c) := (upto9 m ρ c).trans (keep10 m ρ c)

/-! ## The graph's arrays at the first region's entry -/

/-- The edges' sources, targets and weights, of the edge list as launched. -/
abbrev S : Arr Ideal S1700000 .i32 := Spec.src (m ((c : Thread nD τ).loc main_arg1))
abbrev D : Arr Ideal S1700000 .i32 := Spec.dst (m ((c : Thread nD τ).loc main_arg1))
abbrev WT : Arr Ideal S1700000 .f32 :=
  Spec.weight (Spec.scale (Spec.pos (D m c)) (Spec.rs (D m c)) (constant (F := Ideal) S_ .f32 0x00000000#32)) (S m c) (D m c)

theorem src3 : W3 m ρ c (Proc.devRef .tc main_v3) = S m c :=
  calc W3 m ρ c (Proc.devRef .tc main_v3)
    _ = W2 m ρ c (Proc.devRef .tc main_v3) := by kept_by hostOps0_2
    _ = W1 m ρ c (Proc.devRef .tc main_v3) := by kept_by hostOps0_1
    _ = S m c := src0 (W0 m ρ c)
theorem dst3 : W3 m ρ c (Proc.devRef .tc main_v6) = D m c :=
  calc W3 m ρ c (Proc.devRef .tc main_v6)
    _ = W2 m ρ c (Proc.devRef .tc main_v6) := by kept_by hostOps0_2
    _ = W1 m ρ c (Proc.devRef .tc main_v6) := by kept_by hostOps0_1
    _ = D m c := dst0 (W0 m ρ c)
theorem src2 : W2 m ρ c (Proc.devRef .tc main_v3) = S m c :=
  calc W2 m ρ c (Proc.devRef .tc main_v3)
    _ = W1 m ρ c (Proc.devRef .tc main_v3) := by kept_by hostOps0_1
    _ = S m c := src0 (W0 m ρ c)
theorem dst2 : W2 m ρ c (Proc.devRef .tc main_v6) = D m c :=
  calc W2 m ρ c (Proc.devRef .tc main_v6)
    _ = W1 m ρ c (Proc.devRef .tc main_v6) := by kept_by hostOps0_1
    _ = D m c := dst0 (W0 m ρ c)
theorem scale2 : W2 m ρ c (Proc.devRef .tc main_v16)
    = Spec.scale (Spec.pos (D m c)) (Spec.rs (D m c)) (constant (F := Ideal) S_ .f32 0x00000000#32) := by
  have hp : W1 m ρ c (Proc.devRef .tc main_v12) = Spec.pos (D m c) := pos0 (W0 m ρ c)
  have hr : W1 m ρ c (Proc.devRef .tc main_v15) = Spec.rs (D m c) := rs0 (W0 m ρ c)
  have hz : W1 m ρ c (Proc.devRef .tc main_cst_3) = constant (F := Ideal) S_ .f32 0x00000000#32 := zero0 (W0 m ρ c)
  refine (scale1 (W1 m ρ c)).trans ?_
  rw [hp, hr, hz]
theorem weight3 : W3 m ρ c (Proc.devRef .tc main_v31) = WT m c := by
  refine (weight2 (W2 m ρ c)).trans ?_
  rw [scale2 m ρ c, src2 m ρ c, dst2 m ρ c]

/-- A carried buffer at a later boundary, from its contents at the first region's entry. -/
theorem carry {W : Valuation τ sig (Elt Ideal)} (h : Same carried (W3 m ρ c) W) (b : Ref sig .tc) (hb : b ∈ carried) :
    W (Proc.devRef .tc b) = W3 m ρ c (Proc.devRef .tc b) := h b hb

/-! ## The layers -/

/-- The first layer's output, the second's, and the encoder's, of the arguments as launched. -/
abbrev H1 : Arr Ideal S100000x64 .f32 := biasRelu (Spec.aggr (S m c) (D m c) (WT m c) (prod32 (m ((c : Thread nD τ).loc main_arg0)) (m ((c : Thread nD τ).loc main_arg2)))) (Spec.row (m ((c : Thread nD τ).loc main_arg3)))
abbrev H2 : Arr Ideal S100000x64 .f32 := biasRelu (Spec.aggr (S m c) (D m c) (WT m c) (prod64 (H1 m c) (m ((c : Thread nD τ).loc main_arg4)))) (Spec.row (m ((c : Thread nD τ).loc main_arg5)))
abbrev H3 : Arr Ideal S100000x64 .f32 := bias (Spec.aggr (S m c) (D m c) (WT m c) (prod64 (H2 m c) (m ((c : Thread nD τ).loc main_arg6)))) (Spec.row (m ((c : Thread nD τ).loc main_arg7)))

/-- An argument at the first region's entry is the launch memory's. -/
theorem arg3 (b : Ref sig .tc) (hb : b ∈ argBufs) : W3 m ρ c (Proc.devRef .tc b) = m ((c : Thread nD τ).loc b) :=
  (arg_at3 m ρ c b hb).trans rfl

/-- Region 0 leaves the product of the features and the first weight. -/
theorem prod_at4 : W4 m ρ c (Proc.devRef .tc main_v32) = prod32 (m ((c : Thread nD τ).loc main_arg0)) (m ((c : Thread nD τ).loc main_arg2)) := by
  refine (W4_arr m ρ c 2).trans ((Region0.value (V3 m ρ) c).trans ?_)
  show prod32 (W3 m ρ c (Proc.devRef .tc main_arg0)) (W3 m ρ c (Proc.devRef .tc main_arg2)) = _
  rw [arg3 m ρ c main_arg0 (by decide), arg3 m ρ c main_arg2 (by decide)]

/-- Region 1 leaves the first layer's output. -/
theorem h1_at6 : W6 m ρ c (Proc.devRef .tc main_v47) = H1 m c := by
  refine (W6_arr m ρ c 2).trans ((Region1.value (V5 m ρ) c).trans ?_)
  show biasRelu (StableHlo.after hostOps1 (W4 m ρ c) (Proc.devRef .tc main_v45)) (StableHlo.after hostOps1 (W4 m ρ c) (Proc.devRef .tc main_v46)) = _
  rw [aggr1 (W4 m ρ c), row1 (W4 m ρ c), prod_at4 m ρ c,
    carry m ρ c (upto4 m ρ c) main_v3 (by decide), carry m ρ c (upto4 m ρ c) main_v6 (by decide), carry m ρ c (upto4 m ρ c) main_v31 (by decide),
    carry m ρ c (upto4 m ρ c) main_arg3 (by decide), src3 m ρ c, dst3 m ρ c, weight3 m ρ c, arg3 m ρ c main_arg3 (by decide)]

/-- Region 2 leaves the product of the first layer's output and the second weight. -/
theorem prod_at7 : W7 m ρ c (Proc.devRef .tc main_v48) = prod64 (H1 m c) (m ((c : Thread nD τ).loc main_arg4)) := by
  refine (W7_arr m ρ c 2).trans ((Region2.value (V6 m ρ) c).trans ?_)
  show prod64 (W6 m ρ c (Proc.devRef .tc main_v47)) (W6 m ρ c (Proc.devRef .tc main_arg4)) = _
  rw [h1_at6 m ρ c, carry m ρ c (upto6 m ρ c) main_arg4 (by decide), arg3 m ρ c main_arg4 (by decide)]

/-- Region 3 leaves the second layer's output. -/
theorem h2_at9 : W9 m ρ c (Proc.devRef .tc main_v63) = H2 m c := by
  refine (W9_arr m ρ c 2).trans ((Region3.value (V8 m ρ) c).trans ?_)
  show biasRelu (StableHlo.after hostOps3 (W7 m ρ c) (Proc.devRef .tc main_v61)) (StableHlo.after hostOps3 (W7 m ρ c) (Proc.devRef .tc main_v62)) = _
  rw [aggr3 (W7 m ρ c), row3 (W7 m ρ c), prod_at7 m ρ c,
    carry m ρ c (upto7 m ρ c) main_v3 (by decide), carry m ρ c (upto7 m ρ c) main_v6 (by decide), carry m ρ c (upto7 m ρ c) main_v31 (by decide),
    carry m ρ c (upto7 m ρ c) main_arg5 (by decide), src3 m ρ c, dst3 m ρ c, weight3 m ρ c, arg3 m ρ c main_arg5 (by decide)]

/-- Region 4 leaves the product of the second layer's output and the third weight. -/
theorem prod_at10 : W10 m ρ c (Proc.devRef .tc main_v64) = prod64 (H2 m c) (m ((c : Thread nD τ).loc main_arg6)) := by
  refine (W10_arr m ρ c 2).trans ((Region4.value (V9 m ρ) c).trans ?_)
  show prod64 (W9 m ρ c (Proc.devRef .tc main_v63)) (W9 m ρ c (Proc.devRef .tc main_arg6)) = _
  rw [h2_at9 m ρ c, carry m ρ c (upto9 m ρ c) main_arg6 (by decide), arg3 m ρ c main_arg6 (by decide)]

/-- Region 5 leaves the encoder's output in the result buffer. -/
theorem h3_at12 : W12 m ρ c (Proc.devRef .tc main_v79) = H3 m c := by
  refine (W12_arr m ρ c 2).trans ((Region5.value (V11 m ρ) c).trans ?_)
  show bias (StableHlo.after hostOps5 (W10 m ρ c) (Proc.devRef .tc main_v77)) (StableHlo.after hostOps5 (W10 m ρ c) (Proc.devRef .tc main_v78)) = _
  rw [aggr5 (W10 m ρ c), row5 (W10 m ρ c), prod_at10 m ρ c,
    carry m ρ c (upto10 m ρ c) main_v3 (by decide), carry m ρ c (upto10 m ρ c) main_v6 (by decide), carry m ρ c (upto10 m ρ c) main_v31 (by decide),
    carry m ρ c (upto10 m ρ c) main_arg7 (by decide), src3 m ρ c, dst3 m ρ c, weight3 m ρ c, arg3 m ρ c main_arg7 (by decide)]

/-- The result buffer after the run holds the encoder of the arguments. -/
theorem result : W12 m ρ c (Proc.devRef .tc main_v79)
    = encoder (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  h3_at12 m ρ c

end Cert.KernelIdeal.Fold

end
-- ==== Proof.RefLine.lean ====
/-
  The reference program's run. Its entry function is a straight line of 109 host operations (the two outlined
  helpers, `where` and `relu`, in place at their calls); every weakly fair execution of it terminates with each buffer at
  the fold of the operations' results over the launch memory. The line is cut in six stretches: the edges' sources and
  targets, degrees, mask and rsqrt (A); the nodes' scales (B); the edges' weights (C); and one stretch per layer (L1, L2,
  L3: the matrix product, the aggregation, the bias and, in the first two, relu). The fold over the whole line is the
  stretches' folds one after the other.
-/
import proofs.«138914_j13649406066714_1_alg».proof.ReferenceIdeal
import proofs.«138914_j13649406066714_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- Stretch A: operations 1 … 21 of the line. -/
abbrev opsA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32) ]

/-- Stretch B: operations 22 … 24 of the line. -/
abbrev opsB : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select ]

/-- Stretch C: operations 25 … 43 of the line. -/
abbrev opsC : List (HloOp τ sig (Elt F)) :=
  [ nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)) ]

/-- Stretch L1: operations 44 … 66 of the line. -/
abbrev opsL1 : List (HloOp τ sig (Elt F)) :=
  [ binary main_arg0 main_arg2 main_v32 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    nullary main_c_7 (constantI S_ 32 0#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v35 (broadcastInDim S1700000 ![] bcast_S_S1700000 : (⟨S_, .i32⟩ : BufTy).Contents (Elt F) → (⟨S1700000, .i32⟩ : BufTy).Contents (Elt F)),
    binary main_v3 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x64 ![0, 1] bcast_S1700000x1_S1700000x64_0_1 : (⟨S1700000x1, .f32⟩ : BufTy).Contents (Elt F) → (⟨S1700000x64, .f32⟩ : BufTy).Contents (Elt F)),
    binary main_v39 main_v41 main_v42 (mulf : (⟨S1700000x64, .f32⟩ : BufTy).Contents (Elt F) → (⟨S1700000x64, .f32⟩ : BufTy).Contents (Elt F) → (⟨S1700000x64, .f32⟩ : BufTy).Contents (Elt F)),
    nullary main_cst_9 (constant S_ .f32 0x00000000#32),
    unary main_cst_9 main_v43 (broadcastInDim S100000x64 ![] bcast_S_S100000x64 : (⟨S_, .f32⟩ : BufTy).Contents (Elt F) → (⟨S100000x64, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v46 (broadcastInDim S1x64 ![1] bcast_S64_S1x64_1 : (⟨S64, .f32⟩ : BufTy).Contents (Elt F) → (⟨S1x64, .f32⟩ : BufTy).Contents (Elt F)),
    unary main_v46 main_v47 (broadcastInDim S100000x64 ![0, 1] bcast_S1x64_S100000x64_0_1 : (⟨S1x64, .f32⟩ : BufTy).Contents (Elt F) → (⟨S100000x64, .f32⟩ : BufTy).Contents (Elt F)),
    binary main_v45 main_v47 main_v48 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v48) (TRef.of (T := ⟨S100000x64, .f32⟩) main_call1_v0) (TRef.of (T := ⟨S100000x64, .f32⟩) main_v49) maximumf ]

/-- Stretch L2: operations 67 … 89 of the line. -/
abbrev opsL2 : List (HloOp τ sig (Elt F)) :=
  [ binary main_v49 main_arg4 main_v50 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_10 (constantI S_ 32 0#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v53 (broadcastInDim S1700000 ![] bcast_S_S1700000 : (⟨S_, .i32⟩ : BufTy).Contents (Elt F) → (⟨S1700000, .i32⟩ : BufTy).Contents (Elt F)),
    binary main_v3 main_v53 main_v54 (addi : (⟨S1700000, .i32⟩ : BufTy).Contents (Elt F) → (⟨S1700000, .i32⟩ : BufTy).Contents (Elt F) → (⟨S1700000, .i32⟩ : BufTy).Contents (Elt F)),
    ternary main_v52 main_v54 main_v3 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v55 main_v56 (broadcastInDim S1700000x1 ![0] bcast_S1700000_S1700000x1_0 : (⟨S1700000, .i32⟩ : BufTy).Contents (Elt F) → (⟨S1700000x1, .i32⟩ : BufTy).Contents (Elt F)),
    binary main_v50 main_v56 main_v57 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v58 (broadcastInDim S1700000x1 ![0] bcast_S1700000_S1700000x1_0 : (⟨S1700000, .f32⟩ : BufTy).Contents (Elt F) → (⟨S1700000x1, .f32⟩ : BufTy).Contents (Elt F)),
    unary main_v58 main_v59 (broadcastInDim S1700000x64 ![0, 1] bcast_S1700000x1_S1700000x64_0_1 : (⟨S1700000x1, .f32⟩ : BufTy).Contents (Elt F) → (⟨S1700000x64, .f32⟩ : BufTy).Contents (Elt F)),
    binary main_v57 main_v59 main_v60 (mulf : (⟨S1700000x64, .f32⟩ : BufTy).Contents (Elt F) → (⟨S1700000x64, .f32⟩ : BufTy).Contents (Elt F) → (⟨S1700000x64, .f32⟩ : BufTy).Contents (Elt F)),
    nullary main_cst_12 (constant S_ .f32 0x00000000#32),
    unary main_cst_12 main_v61 (broadcastInDim S100000x64 ![] bcast_S_S100000x64 : (⟨S_, .f32⟩ : BufTy).Contents (Elt F) → (⟨S100000x64, .f32⟩ : BufTy).Contents (Elt F)),
    unary main_v6 main_v62 (broadcastInDim S1700000x1 ![0] bcast_S1700000_S1700000x1_0 : (⟨S1700000, .i32⟩ : BufTy).Contents (Elt F) → (⟨S1700000x1, .i32⟩ : BufTy).Contents (Elt F)),
    ternary main_v61 main_v62 main_v60 main_v63 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg5 main_v64 (broadcastInDim S1x64 ![1] bcast_S64_S1x64_1 : (⟨S64, .f32⟩ : BufTy).Contents (Elt F) → (⟨S1x64, .f32⟩ : BufTy).Contents (Elt F)),
    unary main_v64 main_v65 (broadcastInDim S100000x64 ![0, 1] bcast_S1x64_S100000x64_0_1 : (⟨S1x64, .f32⟩ : BufTy).Contents (Elt F) → (⟨S100000x64, .f32⟩ : BufTy).Contents (Elt F)),
    binary main_v63 main_v65 main_v66 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v66) (TRef.of (T := ⟨S100000x64, .f32⟩) main_call2_v0) (TRef.of (T := ⟨S100000x64, .f32⟩) main_v67) maximumf ]

/-- Stretch L3: operations 90 … 109 of the line. -/
abbrev opsL3 : List (HloOp τ sig (Elt F)) :=
  [ binary main_v67 main_arg6 main_v68 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_13 (constantI S_ 32 0#32),
    unary main_c_13 main_v69 (broadcastInDim S1700000 ![] bcast_S_S1700000 : (⟨S_, .i32⟩ : BufTy).Contents (Elt F) → (⟨S1700000, .i32⟩ : BufTy).Contents (Elt F)),
    binary main_v3 main_v69 main_v70 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v71 (broadcastInDim S1700000 ![] bcast_S_S1700000 : (⟨S_, .i32⟩ : BufTy).Contents (Elt F) → (⟨S1700000, .i32⟩ : BufTy).Contents (Elt F)),
    binary main_v3 main_v71 main_v72 (addi : (⟨S1700000, .i32⟩ : BufTy).Contents (Elt F) → (⟨S1700000, .i32⟩ : BufTy).Contents (Elt F) → (⟨S1700000, .i32⟩ : BufTy).Contents (Elt F)),
    ternary main_v70 main_v72 main_v3 main_v73 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v73 main_v74 (broadcastInDim S1700000x1 ![0] bcast_S1700000_S1700000x1_0 : (⟨S1700000, .i32⟩ : BufTy).Contents (Elt F) → (⟨S1700000x1, .i32⟩ : BufTy).Contents (Elt F)),
    binary main_v68 main_v74 main_v75 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v76 (broadcastInDim S1700000x1 ![0] bcast_S1700000_S1700000x1_0 : (⟨S1700000, .f32⟩ : BufTy).Contents (Elt F) → (⟨S1700000x1, .f32⟩ : BufTy).Contents (Elt F)),
    unary main_v76 main_v77 (broadcastInDim S1700000x64 ![0, 1] bcast_S1700000x1_S1700000x64_0_1 : (⟨S1700000x1, .f32⟩ : BufTy).Contents (Elt F) → (⟨S1700000x64, .f32⟩ : BufTy).Contents (Elt F)),
    binary main_v75 main_v77 main_v78 (mulf : (⟨S1700000x64, .f32⟩ : BufTy).Contents (Elt F) → (⟨S1700000x64, .f32⟩ : BufTy).Contents (Elt F) → (⟨S1700000x64, .f32⟩ : BufTy).Contents (Elt F)),
    nullary main_cst_15 (constant S_ .f32 0x00000000#32),
    unary main_cst_15 main_v79 (broadcastInDim S100000x64 ![] bcast_S_S100000x64 : (⟨S_, .f32⟩ : BufTy).Contents (Elt F) → (⟨S100000x64, .f32⟩ : BufTy).Contents (Elt F)),
    unary main_v6 main_v80 (broadcastInDim S1700000x1 ![0] bcast_S1700000_S1700000x1_0 : (⟨S1700000, .i32⟩ : BufTy).Contents (Elt F) → (⟨S1700000x1, .i32⟩ : BufTy).Contents (Elt F)),
    ternary main_v79 main_v80 main_v78 main_v81 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg7 main_v82 (broadcastInDim S1x64 ![1] bcast_S64_S1x64_1 : (⟨S64, .f32⟩ : BufTy).Contents (Elt F) → (⟨S1x64, .f32⟩ : BufTy).Contents (Elt F)),
    unary main_v82 main_v83 (broadcastInDim S100000x64 ![0, 1] bcast_S1x64_S100000x64_0_1 : (⟨S1x64, .f32⟩ : BufTy).Contents (Elt F) → (⟨S100000x64, .f32⟩ : BufTy).Contents (Elt F)),
    binary main_v81 main_v83 main_v84 (addf : (⟨S100000x64, .f32⟩ : BufTy).Contents (Elt F) → (⟨S100000x64, .f32⟩ : BufTy).Contents (Elt F) → (⟨S100000x64, .f32⟩ : BufTy).Contents (Elt F)) ]

/-- The whole line. -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)),
    binary main_arg0 main_arg2 main_v32 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    nullary main_c_7 (constantI S_ 32 0#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v35 (broadcastInDim S1700000 ![] bcast_S_S1700000 : (⟨S_, .i32⟩ : BufTy).Contents (Elt F) → (⟨S1700000, .i32⟩ : BufTy).Contents (Elt F)),
    binary main_v3 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x64 ![0, 1] bcast_S1700000x1_S1700000x64_0_1 : (⟨S1700000x1, .f32⟩ : BufTy).Contents (Elt F) → (⟨S1700000x64, .f32⟩ : BufTy).Contents (Elt F)),
    binary main_v39 main_v41 main_v42 (mulf : (⟨S1700000x64, .f32⟩ : BufTy).Contents (Elt F) → (⟨S1700000x64, .f32⟩ : BufTy).Contents (Elt F) → (⟨S1700000x64, .f32⟩ : BufTy).Contents (Elt F)),
    nullary main_cst_9 (constant S_ .f32 0x00000000#32),
    unary main_cst_9 main_v43 (broadcastInDim S100000x64 ![] bcast_S_S100000x64 : (⟨S_, .f32⟩ : BufTy).Contents (Elt F) → (⟨S100000x64, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v46 (broadcastInDim S1x64 ![1] bcast_S64_S1x64_1 : (⟨S64, .f32⟩ : BufTy).Contents (Elt F) → (⟨S1x64, .f32⟩ : BufTy).Contents (Elt F)),
    unary main_v46 main_v47 (broadcastInDim S100000x64 ![0, 1] bcast_S1x64_S100000x64_0_1 : (⟨S1x64, .f32⟩ : BufTy).Contents (Elt F) → (⟨S100000x64, .f32⟩ : BufTy).Contents (Elt F)),
    binary main_v45 main_v47 main_v48 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v48) (TRef.of (T := ⟨S100000x64, .f32⟩) main_call1_v0) (TRef.of (T := ⟨S100000x64, .f32⟩) main_v49) maximumf,
    binary main_v49 main_arg4 main_v50 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_10 (constantI S_ 32 0#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v53 (broadcastInDim S1700000 ![] bcast_S_S1700000 : (⟨S_, .i32⟩ : BufTy).Contents (Elt F) → (⟨S1700000, .i32⟩ : BufTy).Contents (Elt F)),
    binary main_v3 main_v53 main_v54 (addi : (⟨S1700000, .i32⟩ : BufTy).Contents (Elt F) → (⟨S1700000, .i32⟩ : BufTy).Contents (Elt F) → (⟨S1700000, .i32⟩ : BufTy).Contents (Elt F)),
    ternary main_v52 main_v54 main_v3 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v55 main_v56 (broadcastInDim S1700000x1 ![0] bcast_S1700000_S1700000x1_0 : (⟨S1700000, .i32⟩ : BufTy).Contents (Elt F) → (⟨S1700000x1, .i32⟩ : BufTy).Contents (Elt F)),
    binary main_v50 main_v56 main_v57 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v58 (broadcastInDim S1700000x1 ![0] bcast_S1700000_S1700000x1_0 : (⟨S1700000, .f32⟩ : BufTy).Contents (Elt F) → (⟨S1700000x1, .f32⟩ : BufTy).Contents (Elt F)),
    unary main_v58 main_v59 (broadcastInDim S1700000x64 ![0, 1] bcast_S1700000x1_S1700000x64_0_1 : (⟨S1700000x1, .f32⟩ : BufTy).Contents (Elt F) → (⟨S1700000x64, .f32⟩ : BufTy).Contents (Elt F)),
    binary main_v57 main_v59 main_v60 (mulf : (⟨S1700000x64, .f32⟩ : BufTy).Contents (Elt F) → (⟨S1700000x64, .f32⟩ : BufTy).Contents (Elt F) → (⟨S1700000x64, .f32⟩ : BufTy).Contents (Elt F)),
    nullary main_cst_12 (constant S_ .f32 0x00000000#32),
    unary main_cst_12 main_v61 (broadcastInDim S100000x64 ![] bcast_S_S100000x64 : (⟨S_, .f32⟩ : BufTy).Contents (Elt F) → (⟨S100000x64, .f32⟩ : BufTy).Contents (Elt F)),
    unary main_v6 main_v62 (broadcastInDim S1700000x1 ![0] bcast_S1700000_S1700000x1_0 : (⟨S1700000, .i32⟩ : BufTy).Contents (Elt F) → (⟨S1700000x1, .i32⟩ : BufTy).Contents (Elt F)),
    ternary main_v61 main_v62 main_v60 main_v63 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg5 main_v64 (broadcastInDim S1x64 ![1] bcast_S64_S1x64_1 : (⟨S64, .f32⟩ : BufTy).Contents (Elt F) → (⟨S1x64, .f32⟩ : BufTy).Contents (Elt F)),
    unary main_v64 main_v65 (broadcastInDim S100000x64 ![0, 1] bcast_S1x64_S100000x64_0_1 : (⟨S1x64, .f32⟩ : BufTy).Contents (Elt F) → (⟨S100000x64, .f32⟩ : BufTy).Contents (Elt F)),
    binary main_v63 main_v65 main_v66 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v66) (TRef.of (T := ⟨S100000x64, .f32⟩) main_call2_v0) (TRef.of (T := ⟨S100000x64, .f32⟩) main_v67) maximumf,
    binary main_v67 main_arg6 main_v68 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_13 (constantI S_ 32 0#32),
    unary main_c_13 main_v69 (broadcastInDim S1700000 ![] bcast_S_S1700000 : (⟨S_, .i32⟩ : BufTy).Contents (Elt F) → (⟨S1700000, .i32⟩ : BufTy).Contents (Elt F)),
    binary main_v3 main_v69 main_v70 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v71 (broadcastInDim S1700000 ![] bcast_S_S1700000 : (⟨S_, .i32⟩ : BufTy).Contents (Elt F) → (⟨S1700000, .i32⟩ : BufTy).Contents (Elt F)),
    binary main_v3 main_v71 main_v72 (addi : (⟨S1700000, .i32⟩ : BufTy).Contents (Elt F) → (⟨S1700000, .i32⟩ : BufTy).Contents (Elt F) → (⟨S1700000, .i32⟩ : BufTy).Contents (Elt F)),
    ternary main_v70 main_v72 main_v3 main_v73 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v73 main_v74 (broadcastInDim S1700000x1 ![0] bcast_S1700000_S1700000x1_0 : (⟨S1700000, .i32⟩ : BufTy).Contents (Elt F) → (⟨S1700000x1, .i32⟩ : BufTy).Contents (Elt F)),
    binary main_v68 main_v74 main_v75 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v76 (broadcastInDim S1700000x1 ![0] bcast_S1700000_S1700000x1_0 : (⟨S1700000, .f32⟩ : BufTy).Contents (Elt F) → (⟨S1700000x1, .f32⟩ : BufTy).Contents (Elt F)),
    unary main_v76 main_v77 (broadcastInDim S1700000x64 ![0, 1] bcast_S1700000x1_S1700000x64_0_1 : (⟨S1700000x1, .f32⟩ : BufTy).Contents (Elt F) → (⟨S1700000x64, .f32⟩ : BufTy).Contents (Elt F)),
    binary main_v75 main_v77 main_v78 (mulf : (⟨S1700000x64, .f32⟩ : BufTy).Contents (Elt F) → (⟨S1700000x64, .f32⟩ : BufTy).Contents (Elt F) → (⟨S1700000x64, .f32⟩ : BufTy).Contents (Elt F)),
    nullary main_cst_15 (constant S_ .f32 0x00000000#32),
    unary main_cst_15 main_v79 (broadcastInDim S100000x64 ![] bcast_S_S100000x64 : (⟨S_, .f32⟩ : BufTy).Contents (Elt F) → (⟨S100000x64, .f32⟩ : BufTy).Contents (Elt F)),
    unary main_v6 main_v80 (broadcastInDim S1700000x1 ![0] bcast_S1700000_S1700000x1_0 : (⟨S1700000, .i32⟩ : BufTy).Contents (Elt F) → (⟨S1700000x1, .i32⟩ : BufTy).Contents (Elt F)),
    ternary main_v79 main_v80 main_v78 main_v81 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg7 main_v82 (broadcastInDim S1x64 ![1] bcast_S64_S1x64_1 : (⟨S64, .f32⟩ : BufTy).Contents (Elt F) → (⟨S1x64, .f32⟩ : BufTy).Contents (Elt F)),
    unary main_v82 main_v83 (broadcastInDim S100000x64 ![0, 1] bcast_S1x64_S100000x64_0_1 : (⟨S1x64, .f32⟩ : BufTy).Contents (Elt F) → (⟨S100000x64, .f32⟩ : BufTy).Contents (Elt F)),
    binary main_v81 main_v83 main_v84 (addf : (⟨S100000x64, .f32⟩ : BufTy).Contents (Elt F) → (⟨S100000x64, .f32⟩ : BufTy).Contents (Elt F) → (⟨S100000x64, .f32⟩ : BufTy).Contents (Elt F)) ]

/-- The line is the six stretches in order. -/
theorem ops_eq : (ops : List (HloOp τ sig (Elt F))) = opsA ++ (opsB ++ (opsC ++ (opsL1 ++ (opsL2 ++ opsL3)))) := rfl

set_option maxHeartbeats 8000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub ..⟩
theorem opsA_fresh : ∀ op ∈ (opsA : List (HloOp τ sig (Elt F))), op.fresh = ∅ := by
  intro _ h; (repeat (cases h with | head => rfl | tail _ h => ?_)); exact nomatch h
theorem opsB_sub : (opsB : List (HloOp τ sig (Elt F))).Forall fun op => op.bufs ⊆ tcRefs τ sig :=
  ⟨unary_bufs_sub .., unary_bufs_sub .., ternary_bufs_sub ..⟩
theorem opsB_fresh : ∀ op ∈ (opsB : List (HloOp τ sig (Elt F))), op.fresh = ∅ := by
  intro _ h; (repeat (cases h with | head => rfl | tail _ h => ?_)); exact nomatch h
theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsC_fresh : ∀ op ∈ (opsC : List (HloOp τ sig (Elt F))), op.fresh = ∅ := by
  intro _ h; (repeat (cases h with | head => rfl | tail _ h => ?_)); exact nomatch h
theorem opsL1_sub : (opsL1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
theorem opsL1_fresh : ∀ op ∈ (opsL1 : List (HloOp τ sig (Elt F))), op.fresh = ∅ := by
  intro _ h; (repeat (cases h with | head => rfl | tail _ h => ?_)); exact nomatch h
theorem opsL2_sub : (opsL2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
theorem opsL2_fresh : ∀ op ∈ (opsL2 : List (HloOp τ sig (Elt F))), op.fresh = ∅ := by
  intro _ h; (repeat (cases h with | head => rfl | tail _ h => ?_)); exact nomatch h
theorem opsL3_sub : (opsL3 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem opsL3_fresh : ∀ op ∈ (opsL3 : List (HloOp τ sig (Elt F))), op.fresh = ∅ := by
  intro _ h; (repeat (cases h with | head => rfl | tail _ h => ?_)); exact nomatch h

theorem forall_append {α : Type} {p : α → Prop} {l₁ l₂ : List α} (h₁ : l₁.Forall p) (h₂ : l₂.Forall p) : (l₁ ++ l₂).Forall p :=
  List.forall_iff_forall_mem.mpr fun a ha => (List.mem_append.mp ha).elim (List.forall_iff_forall_mem.mp h₁ a) (List.forall_iff_forall_mem.mp h₂ a)

theorem ops_sub : (ops : List (HloOp τ sig (Elt F))).Forall fun op => op.bufs ⊆ tcRefs τ sig :=
  ops_eq (F := F) ▸ forall_append opsA_sub (forall_append opsB_sub (forall_append opsC_sub (forall_append opsL1_sub (forall_append opsL2_sub opsL3_sub))))

theorem ops_fresh : ∀ op ∈ (ops : List (HloOp τ sig (Elt F))), op.fresh = ∅ := fun op h' =>
  have h : op ∈ opsA ++ (opsB ++ (opsC ++ (opsL1 ++ (opsL2 ++ opsL3)))) := ops_eq (F := F) ▸ h'
  (List.mem_append.mp h).elim (opsA_fresh op) fun h => (List.mem_append.mp h).elim (opsB_fresh op) fun h =>
  (List.mem_append.mp h).elim (opsC_fresh op) fun h => (List.mem_append.mp h).elim (opsL1_fresh op) fun h =>
  (List.mem_append.mp h).elim (opsL2_fresh op) (opsL3_fresh op)

/-- The fold over two lines one after the other is the second's fold from the first's. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-- The buffers after each stretch, from the launch memory of core `c`. -/
abbrev R0 (m : (ℓ : Loc nD τ sig) → Buf (Elt F) ℓ) (c : Dev nD) : Valuation τ sig (Elt F) := launchContents m c
abbrev R1 (m : (ℓ : Loc nD τ sig) → Buf (Elt F) ℓ) (c : Dev nD) : Valuation τ sig (Elt F) := StableHlo.after opsA (R0 m c)
abbrev R2 (m : (ℓ : Loc nD τ sig) → Buf (Elt F) ℓ) (c : Dev nD) : Valuation τ sig (Elt F) := StableHlo.after opsB (R1 m c)
abbrev R3 (m : (ℓ : Loc nD τ sig) → Buf (Elt F) ℓ) (c : Dev nD) : Valuation τ sig (Elt F) := StableHlo.after opsC (R2 m c)
abbrev R4 (m : (ℓ : Loc nD τ sig) → Buf (Elt F) ℓ) (c : Dev nD) : Valuation τ sig (Elt F) := StableHlo.after opsL1 (R3 m c)
abbrev R5 (m : (ℓ : Loc nD τ sig) → Buf (Elt F) ℓ) (c : Dev nD) : Valuation τ sig (Elt F) := StableHlo.after opsL2 (R4 m c)
abbrev R6 (m : (ℓ : Loc nD τ sig) → Buf (Elt F) ℓ) (c : Dev nD) : Valuation τ sig (Elt F) := StableHlo.after opsL3 (R5 m c)

theorem after_ops (m : (ℓ : Loc nD τ sig) → Buf (Elt F) ℓ) (c : Dev nD) : StableHlo.after ops (launchContents m c) = R6 m c := by
  rw [ops_eq]; simp only [after_append]

/-- Every weakly fair execution of the reference terminates, nothing faulting, with every buffer at the last stretch's
    fold. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = R6 m c (Proc.devRef .tc b) :=
  (θ_run defs _ _).mono (fun _ h c b => (h c b).trans (congrFun (after_ops m c) _))
    (run_seq scopedRefs_eq scopedSems_eq defs main (fun _ => ops) main_eq (fun _ => ops_sub) m ρ (fun _ => ops_fresh))

end Cert.ReferenceIdeal.Line

end
-- ==== Proof.RefRead.lean ====
/-
  The reference program's stretches, each read as functions of the buffers it finds (for any float values), in the
  SAME functions the kernel program's host stretches are read in (Spec): the two programs' host operations on the graph
  are the same operations over the same shapes. A layer's stretch is the matrix product of the node features with the
  layer's weight (the host's `dot_general`), the aggregation, the bias added along the rows (two broadcasts of the bias
  vector) and, in the first two layers, the larger of that and zero.
-/
import proofs.«138914_j13649406066714_1_alg».proof.Proof.RefLine
import proofs.«138914_j13649406066714_1_alg».proof.Proof.Gen.KernelIdeal
import proofs.«138914_j13649406066714_1_alg».proof.Proof.Spec

noncomputable section

namespace Cert.ReferenceIdeal.LineRead

open Cert.ReferenceIdeal Cert.ReferenceIdeal.Gen Cert.ReferenceIdeal.Line
open Idealize.ShloMosaic Idealize.ShloMosaic.TcCoe Idealize.SL.Sem Idealize.ShloMosaic.StableHlo
open Cert.KernelIdeal.Spec (Arr)

variable {F : FTy → Type} [FloatOps F]

/-- A buffer that no operation of a literal stretch writes keeps its contents. -/
macro "kept_by " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- The host's product of a [100000, 32] array and a [32, 64] array. -/
def dense32 (x : Arr F S100000x32 .f32) (w : Arr F S32x64 .f32) : Arr F S100000x64 .f32 :=
  Host.dotGeneral dot_S100000x32_S32x64_S100000x64_1_0_0_1_n_n none x w
/-- The host's product of a [100000, 64] array and a [64, 64] array. -/
def dense64 (x : Arr F S100000x64 .f32) (w : Arr F S64x64 .f32) : Arr F S100000x64 .f32 :=
  Host.dotGeneral dot_S100000x64_S64x64_S100000x64_1_0_0_1_n_n none x w
/-- The bias vector added along the rows. -/
def addBias (a : Arr F S100000x64 .f32) (b : Arr F S64 .f32) : Arr F S100000x64 .f32 :=
  addf a (broadcastInDim S100000x64 ![0, 1] bcast_S1x64_S100000x64_0_1 (broadcastInDim S1x64 ![1] bcast_S64_S1x64_1 b))
/-- The larger of each entry and zero. -/
def relu (a : Arr F S100000x64 .f32) : Arr F S100000x64 .f32 :=
  maximumf a (broadcastInDim S100000x64 ![] bcast_S_S100000x64 (constant (F := F) S_ .f32 0x00000000#32))

variable (W : Valuation τ sig (Elt F))

/-! ## The graph's arrays -/

theorem srcA : StableHlo.after (opsA (F := F)) W (Proc.devRef .tc main_v3) = Cert.KernelIdeal.Spec.src (W (Proc.devRef .tc main_arg1)) := by
  simp only [opsA]; after_results; rfl
theorem dstA : StableHlo.after (opsA (F := F)) W (Proc.devRef .tc main_v6) = Cert.KernelIdeal.Spec.dst (W (Proc.devRef .tc main_arg1)) := by
  simp only [opsA]; after_results; rfl
theorem posA : StableHlo.after (opsA (F := F)) W (Proc.devRef .tc main_v12) = Cert.KernelIdeal.Spec.pos (Cert.KernelIdeal.Spec.dst (W (Proc.devRef .tc main_arg1))) := by
  simp only [opsA]; after_results; rfl
theorem rsA : StableHlo.after (opsA (F := F)) W (Proc.devRef .tc main_v15) = Cert.KernelIdeal.Spec.rs (Cert.KernelIdeal.Spec.dst (W (Proc.devRef .tc main_arg1))) := by
  simp only [opsA]; after_results; rfl
theorem zeroA : StableHlo.after (opsA (F := F)) W (Proc.devRef .tc main_cst_3) = constant (F := F) Cert.KernelIdeal.S_ .f32 0x00000000#32 := by
  simp only [opsA]; after_results

theorem scaleB : StableHlo.after (opsB (F := F)) W (Proc.devRef .tc main_v16)
    = Cert.KernelIdeal.Spec.scale (W (Proc.devRef .tc main_v12)) (W (Proc.devRef .tc main_v15)) (W (Proc.devRef .tc main_cst_3)) := by
  simp only [opsB]; after_results; rfl

set_option maxHeartbeats 2000000 in
theorem weightC : StableHlo.after (opsC (F := F)) W (Proc.devRef .tc main_v31)
    = Cert.KernelIdeal.Spec.weight (W (Proc.devRef .tc main_v16)) (W (Proc.devRef .tc main_v3)) (W (Proc.devRef .tc main_v6)) := by
  simp only [opsC]; after_results_simp <;> rfl

/-! ## The layers -/

set_option maxHeartbeats 2000000 in
theorem layer1 : StableHlo.after (opsL1 (F := F)) W (Proc.devRef .tc main_v49)
    = relu (addBias (Cert.KernelIdeal.Spec.aggr (W (Proc.devRef .tc main_v3)) (W (Proc.devRef .tc main_v6)) (W (Proc.devRef .tc main_v31))
        (dense32 (W (Proc.devRef .tc main_arg0)) (W (Proc.devRef .tc main_arg2)))) (W (Proc.devRef .tc main_arg3))) := by
  simp only [opsL1]; after_results_simp <;> rfl
set_option maxHeartbeats 2000000 in
theorem layer2 : StableHlo.after (opsL2 (F := F)) W (Proc.devRef .tc main_v67)
    = relu (addBias (Cert.KernelIdeal.Spec.aggr (W (Proc.devRef .tc main_v3)) (W (Proc.devRef .tc main_v6)) (W (Proc.devRef .tc main_v31))
        (dense64 (W (Proc.devRef .tc main_v49)) (W (Proc.devRef .tc main_arg4)))) (W (Proc.devRef .tc main_arg5))) := by
  simp only [opsL2]; after_results_simp <;> rfl
set_option maxHeartbeats 2000000 in
theorem layer3 : StableHlo.after (opsL3 (F := F)) W (Proc.devRef .tc main_v84)
    = addBias (Cert.KernelIdeal.Spec.aggr (W (Proc.devRef .tc main_v3)) (W (Proc.devRef .tc main_v6)) (W (Proc.devRef .tc main_v31))
        (dense64 (W (Proc.devRef .tc main_v67)) (W (Proc.devRef .tc main_arg6)))) (W (Proc.devRef .tc main_arg7)) := by
  simp only [opsL3]; after_results_simp <;> rfl

end Cert.ReferenceIdeal.LineRead

end
-- ==== Proof.RefValue.lean ====
/-
  What the reference program's result buffer holds after its run: the same encoder (Layers) of the eight arguments.
  Over the extended reals the host's `dot_general` is the matrix product entry by entry; the bias broadcast along the rows
  and added is the bias step; the larger of that and zero is relu. With the graph's arrays read in the shared functions
  (RefRead), the three layer stretches compose to the encoder.
-/
import proofs.«138914_j13649406066714_1_alg».proof.Proof.RefRead
import proofs.«138914_j13649406066714_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.ReferenceIdeal.LineValue

open Cert.ReferenceIdeal Cert.ReferenceIdeal.Gen Cert.ReferenceIdeal.Line Cert.ReferenceIdeal.LineRead
open Idealize.ShloMosaic Idealize.ShloMosaic.TcCoe Idealize.SL.Sem Idealize.ShloMosaic.StableHlo
open Cert.KernelIdeal.Spec (Arr)
open Cert.KernelIdeal.Layers

/-! ## The dense steps over the extended reals -/

/-- The host product's operand indices: the left operand's row is the output's row … -/
theorem lhs_row32 (i : S100000x64.Idx) (q : dot_S100000x32_S32x64_S100000x64_1_0_0_1_n_n.contr.Idx) : (dot_S100000x32_S32x64_S100000x64_1_0_0_1_n_n.lhsIdx i q 0).val = (i 0).val := by
  unfold DotDims.lhsIdx
  rw [dif_neg (show ¬(0 : Fin S100000x32.rank) ∈ dot_S100000x32_S32x64_S100000x64_1_0_0_1_n_n.lhsBatch by decide), dif_pos (show (0 : Fin S100000x32.rank) ∈ dot_S100000x32_S32x64_S100000x64_1_0_0_1_n_n.lhsNonContracting by decide)]
  rfl
/-- … and the right operand's column is the output's column. -/
theorem rhs_col32 (i : S100000x64.Idx) (q : dot_S100000x32_S32x64_S100000x64_1_0_0_1_n_n.contr.Idx) : (dot_S100000x32_S32x64_S100000x64_1_0_0_1_n_n.rhsIdx i q 1).val = (i 1).val := by
  unfold DotDims.rhsIdx
  rw [dif_neg (show ¬(1 : Fin S32x64.rank) ∈ dot_S100000x32_S32x64_S100000x64_1_0_0_1_n_n.rhsBatch by decide), dif_pos (show (1 : Fin S32x64.rank) ∈ dot_S100000x32_S32x64_S100000x64_1_0_0_1_n_n.rhsNonContracting by decide)]
  rfl

/-- Over the extended reals the host's product is the matrix product, entry by entry. -/
theorem dense32_eq (x : Arr Ideal S100000x32 .f32) (w : Arr Ideal S32x64 .f32) : dense32 (F := Ideal) x w = prod32 x w := by
  funext i
  unfold dense32
  simp only [Host.dotGeneral]
  refine (Ideal.dotGeneral_apply dot_S100000x32_S32x64_S100000x64_1_0_0_1_n_n none _ x w i).trans ?_
  rw [← Equiv.sum_comp (ValueIdx.contrEquiv1 dot_S100000x32_S32x64_S100000x64_1_0_0_1_n_n 32 rfl rfl).symm]
  unfold prod32
  refine Finset.sum_congr rfl fun k _ => ?_
  have hk := ValueIdx.contrEquiv1_symm_val dot_S100000x32_S32x64_S100000x64_1_0_0_1_n_n 32 rfl rfl k
  have el : dot_S100000x32_S32x64_S100000x64_1_0_0_1_n_n.lhsIdx i ((ValueIdx.contrEquiv1 dot_S100000x32_S32x64_S100000x64_1_0_0_1_n_n 32 rfl rfl).symm k) = ValueIdx.ix2 (i 0) k := funext fun a => Fin.ext (by
    match a with
    | ⟨0, _⟩ => exact lhs_row32 _ _
    | ⟨1, _⟩ => exact (dot_S100000x32_S32x64_S100000x64_1_0_0_1_n_n.lhsIdx_val_of_single rfl i _).trans hk)
  have er : dot_S100000x32_S32x64_S100000x64_1_0_0_1_n_n.rhsIdx i ((ValueIdx.contrEquiv1 dot_S100000x32_S32x64_S100000x64_1_0_0_1_n_n 32 rfl rfl).symm k) = ValueIdx.ix2 k (i 1) := funext fun a => Fin.ext (by
    match a with
    | ⟨0, _⟩ => exact (dot_S100000x32_S32x64_S100000x64_1_0_0_1_n_n.rhsIdx_val_of_single rfl i _).trans hk
    | ⟨1, _⟩ => exact rhs_col32 _ _)
  rw [el, er]
  rfl

/-- The host product's operand indices: the left operand's row is the output's row … -/
theorem lhs_row64 (i : S100000x64.Idx) (q : dot_S100000x64_S64x64_S100000x64_1_0_0_1_n_n.contr.Idx) : (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
/-- … and the right operand's column is the output's column. -/
theorem rhs_col64 (i : S100000x64.Idx) (q : dot_S100000x64_S64x64_S100000x64_1_0_0_1_n_n.contr.Idx) : (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- Over the extended reals the host's product is the matrix product, entry by entry. -/
theorem dense64_eq (x : Arr Ideal S100000x64 .f32) (w : Arr Ideal S64x64 .f32) : dense64 (F := Ideal) x w = prod64 x w := by
  funext i
  unfold dense64
  simp only [Host.dotGeneral]
  refine (Ideal.dotGeneral_apply dot_S100000x64_S64x64_S100000x64_1_0_0_1_n_n none _ x w i).trans ?_
  rw [← Equiv.sum_comp (ValueIdx.contrEquiv1 dot_S100000x64_S64x64_S100000x64_1_0_0_1_n_n 64 rfl rfl).symm]
  unfold prod64
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = ValueIdx.ix2 (i 0) k := funext fun a => Fin.ext (by
    match a with
    | ⟨0, _⟩ => exact lhs_row64 _ _
    | ⟨1, _⟩ => exact (dot_S100000x64_S64x64_S100000x64_1_0_0_1_n_n.lhsIdx_val_of_single rfl i _).trans hk)
  have er : dot_S100000x64_S64x64_S100000x64_1_0_0_1_n_n.rhsIdx i ((ValueIdx.contrEquiv1 dot_S100000x64_S64x64_S100000x64_1_0_0_1_n_n 64 rfl rfl).symm k) = ValueIdx.ix2 k (i 1) := funext fun a => Fin.ext (by
    match a with
    | ⟨0, _⟩ => exact (dot_S100000x64_S64x64_S100000x64_1_0_0_1_n_n.rhsIdx_val_of_single rfl i _).trans hk
    | ⟨1, _⟩ => exact rhs_col64 _ _)
  rw [el, er]
  rfl

/-- The bias added along the rows, at an entry. -/
theorem addBias_apply (a : Arr Ideal S100000x64 .f32) (b : Arr Ideal S64 .f32) (i : S100000x64.Idx) :
    addBias (F := Ideal) a b i = a i + b (ValueIdx.ix1 (i 1 : Fin 64)) := by
  unfold addBias
  rw [ValueIdx.addf_apply]
  have h1 : broadcastInDim S100000x64 ![0, 1] bcast_S1x64_S100000x64_0_1 (broadcastInDim S1x64 ![1] bcast_S64_S1x64_1 b) i
      = (broadcastInDim S1x64 ![1] bcast_S64_S1x64_1 b) (ValueIdx.ix2 (0 : Fin 1) (i 1 : Fin 64)) :=
    broadcastInDim_apply _ bcast_S1x64_S100000x64_0_1 _ i _ (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)])
  have h2 : broadcastInDim S1x64 ![1] bcast_S64_S1x64_1 b (ValueIdx.ix2 (0 : Fin 1) (i 1 : Fin 64)) = b (ValueIdx.ix1 (i 1 : Fin 64)) :=
    broadcastInDim_apply _ bcast_S64_S1x64_1 b _ _ (fun a => match a with
      | ⟨0, _⟩ => by show (i 1).val = if (64 : Nat) = 1 then 0 else (i 1).val; rw [if_neg (by decide)])
  rw [h1, h2]

/-- The bias vector as a [1, 64] row, at an entry. -/
theorem row_apply (b : Arr Ideal Cert.KernelIdeal.S64 .f32) (j : Fin 64) :
    Cert.KernelIdeal.Spec.row b (ValueIdx.ix2 (0 : Fin 1) j) = b (ValueIdx.ix1 j) := by
  unfold Cert.KernelIdeal.Spec.row
  refine (shapeCast_addUnit_apply ![64] b _ (ValueIdx.ix2 (0 : Fin 1) j)).trans ?_
  refine congrArg b (funext fun a => ?_)
  match a with
  | ⟨0, _⟩ => rfl

/-- The bias added along the rows is the bias step with the vector as a row. -/
theorem addBias_eq (a : Arr Ideal S100000x64 .f32) (b : Arr Ideal S64 .f32) : addBias (F := Ideal) a b = bias a (Cert.KernelIdeal.Spec.row b) := by
  funext i
  unfold bias
  rw [addBias_apply]
  exact congrArg (fun y => a i + y) (row_apply b (i 1)).symm

/-- … and with the larger of that and zero it is the bias step with relu. -/
theorem relu_addBias_eq (a : Arr Ideal S100000x64 .f32) (b : Arr Ideal S64 .f32) :
    relu (F := Ideal) (addBias a b) = biasRelu a (Cert.KernelIdeal.Spec.row b) := by
  funext i
  unfold relu biasRelu
  rw [ValueIdx.maximumf_apply, addBias_apply]
  have hz : broadcastInDim S100000x64 ![] bcast_S_S100000x64 (constant (F := Ideal) S_ .f32 0x00000000#32) i = 0 := by
    rw [broadcastInDim_apply _ bcast_S_S100000x64 _ i ValueIdx.ix0 (fun a => a.elim0), ValueIdx.constant_apply, Ideal.ofBits_zero_f32]
  rw [hz]
  exact congrArg (fun y => max (a i + y) 0) (row_apply b (i 1)).symm

/-! ## The fold -/

variable (m : (ℓ : Loc nD τ sig) → Buf (Elt Ideal) ℓ) (c : Dev nD)

/-- Two valuations agree on a list of buffers. -/
def Same (L : List (Ref sig .tc)) (W W' : Valuation τ sig (Elt Ideal)) : Prop :=
  ∀ b ∈ L, W' (Proc.devRef .tc b) = W (Proc.devRef .tc b)

theorem Same.trans {L : List (Ref sig .tc)} {W W' W'' : Valuation τ sig (Elt Ideal)} (h : Same L W W') (h' : Same L W' W'') : Same L W W'' :=
  fun b hb => (h' b hb).trans (h b hb)

/-- The arguments. -/
def argBufs : List (Ref sig .tc) := [main_arg0, main_arg1, main_arg2, main_arg3, main_arg4, main_arg5, main_arg6, main_arg7]
/-- What the later layers read and no layer writes. -/
def carried : List (Ref sig .tc) := [main_v3, main_v6, main_v31, main_arg4, main_arg5, main_arg6, main_arg7]

theorem argsA : Same argBufs (R0 m c) (R1 m c) := by
  intro b hb
  simp only [argBufs, List.mem_cons, List.mem_nil_iff, or_false] at hb
  rcases hb with rfl | rfl | rfl | rfl | rfl | rfl | rfl | rfl <;> kept_by opsA
theorem argsB : Same argBufs (R1 m c) (R2 m c) := by
  intro b hb
  simp only [argBufs, List.mem_cons, List.mem_nil_iff, or_false] at hb
  rcases hb with rfl | rfl | rfl | rfl | rfl | rfl | rfl | rfl <;> kept_by opsB
theorem argsC : Same argBufs (R2 m c) (R3 m c) := by
  intro b hb
  simp only [argBufs, List.mem_cons, List.mem_nil_iff, or_false] at hb
  rcases hb with rfl | rfl | rfl | rfl | rfl | rfl | rfl | rfl <;> kept_by opsC

/-- After the third stretch each argument is as launched. -/
theorem arg3 (b : Ref sig .tc) (hb : b ∈ argBufs) : R3 m c (Proc.devRef .tc b) = m ((c.tc : Thread nD τ).loc b) :=
  (((argsA m c).trans ((argsB m c).trans (argsC m c))) b hb).trans rfl

theorem argsL1 : Same argBufs (R3 m c) (R4 m c) := by
  intro b hb
  simp only [argBufs, List.mem_cons, List.mem_nil_iff, or_false] at hb
  rcases hb with rfl | rfl | rfl | rfl | rfl | rfl | rfl | rfl <;> kept_by opsL1
theorem argsL2 : Same argBufs (R4 m c) (R5 m c) := by
  intro b hb
  simp only [argBufs, List.mem_cons, List.mem_nil_iff, or_false] at hb
  rcases hb with rfl | rfl | rfl | rfl | rfl | rfl | rfl | rfl <;> kept_by opsL2
theorem argsL3 : Same argBufs (R5 m c) (R6 m c) := by
  intro b hb
  simp only [argBufs, List.mem_cons, List.mem_nil_iff, or_false] at hb
  rcases hb with rfl | rfl | rfl | rfl | rfl | rfl | rfl | rfl <;> kept_by opsL3

/-- After the whole line each argument is as launched. -/
theorem arg6 (b : Ref sig .tc) (hb : b ∈ argBufs) : R6 m c (Proc.devRef .tc b) = m ((c.tc : Thread nD τ).loc b) :=
  (((argsL1 m c).trans ((argsL2 m c).trans (argsL3 m c))) b hb).trans (arg3 m c b hb)

theorem keep4 : Same carried (R3 m c) (R4 m c) := by
  intro b hb
  simp only [carried, List.mem_cons, List.mem_nil_iff, or_false] at hb
  rcases hb with rfl | rfl | rfl | rfl | rfl | rfl | rfl <;> kept_by opsL1
theorem keep5 : Same carried (R4 m c) (R5 m c) := by
  intro b hb
  simp only [carried, List.mem_cons, List.mem_nil_iff, or_false] at hb
  rcases hb with rfl | rfl | rfl | rfl | rfl | rfl | rfl <;> kept_by opsL2

/-- The edges' sources, targets and weights, of the edge list as launched. -/
abbrev S : Arr Ideal S1700000 .i32 := Cert.KernelIdeal.Spec.src (m ((c.tc : Thread nD τ).loc main_arg1))
abbrev D : Arr Ideal S1700000 .i32 := Cert.KernelIdeal.Spec.dst (m ((c.tc : Thread nD τ).loc main_arg1))
abbrev WT : Arr Ideal S1700000 .f32 :=
  Cert.KernelIdeal.Spec.weight (Cert.KernelIdeal.Spec.scale (Cert.KernelIdeal.Spec.pos (D m c)) (Cert.KernelIdeal.Spec.rs (D m c))
    (constant (F := Ideal) Cert.KernelIdeal.S_ .f32 0x00000000#32)) (S m c) (D m c)

theorem src2 : R2 m c (Proc.devRef .tc main_v3) = S m c :=
  calc R2 m c (Proc.devRef .tc main_v3)
    _ = R1 m c (Proc.devRef .tc main_v3) := by kept_by opsB
    _ = S m c := srcA (R0 m c)
theorem dst2 : R2 m c (Proc.devRef .tc main_v6) = D m c :=
  calc R2 m c (Proc.devRef .tc main_v6)
    _ = R1 m c (Proc.devRef .tc main_v6) := by kept_by opsB
    _ = D m c := dstA (R0 m c)
theorem src3 : R3 m c (Proc.devRef .tc main_v3) = S m c :=
  calc R3 m c (Proc.devRef .tc main_v3)
    _ = R2 m c (Proc.devRef .tc main_v3) := by kept_by opsC
    _ = S m c := src2 m c
theorem dst3 : R3 m c (Proc.devRef .tc main_v6) = D m c :=
  calc R3 m c (Proc.devRef .tc main_v6)
    _ = R2 m c (Proc.devRef .tc main_v6) := by kept_by opsC
    _ = D m c := dst2 m c
theorem scale2 : R2 m c (Proc.devRef .tc main_v16)
    = Cert.KernelIdeal.Spec.scale (Cert.KernelIdeal.Spec.pos (D m c)) (Cert.KernelIdeal.Spec.rs (D m c)) (constant (F := Ideal) Cert.KernelIdeal.S_ .f32 0x00000000#32) := by
  have hp : R1 m c (Proc.devRef .tc main_v12) = Cert.KernelIdeal.Spec.pos (D m c) := posA (R0 m c)
  have hr : R1 m c (Proc.devRef .tc main_v15) = Cert.KernelIdeal.Spec.rs (D m c) := rsA (R0 m c)
  have hz : R1 m c (Proc.devRef .tc main_cst_3) = constant (F := Ideal) Cert.KernelIdeal.S_ .f32 0x00000000#32 := zeroA (R0 m c)
  refine (scaleB (R1 m c)).trans ?_
  rw [hp, hr, hz]
theorem weight3 : R3 m c (Proc.devRef .tc main_v31) = WT m c := by
  refine (weightC (R2 m c)).trans ?_
  rw [scale2 m c, src2 m c, dst2 m c]

/-- A carried buffer at a later boundary, from its contents after the third stretch. -/
theorem carry {W : Valuation τ sig (Elt Ideal)} (h : Same carried (R3 m c) W) (b : Ref sig .tc) (hb : b ∈ carried) :
    W (Proc.devRef .tc b) = R3 m c (Proc.devRef .tc b) := h b hb

/-- The first layer's output, the second's, and the encoder's, of the arguments as launched. -/
abbrev H1 : Arr Ideal S100000x64 .f32 := biasRelu (Cert.KernelIdeal.Spec.aggr (S m c) (D m c) (WT m c) (prod32 (m ((c.tc : Thread nD τ).loc main_arg0)) (m ((c.tc : Thread nD τ).loc main_arg2)))) (Cert.KernelIdeal.Spec.row (m ((c.tc : Thread nD τ).loc main_arg3)))
abbrev H2 : Arr Ideal S100000x64 .f32 := biasRelu (Cert.KernelIdeal.Spec.aggr (S m c) (D m c) (WT m c) (prod64 (H1 m c) (m ((c.tc : Thread nD τ).loc main_arg4)))) (Cert.KernelIdeal.Spec.row (m ((c.tc : Thread nD τ).loc main_arg5)))
abbrev H3 : Arr Ideal S100000x64 .f32 := bias (Cert.KernelIdeal.Spec.aggr (S m c) (D m c) (WT m c) (prod64 (H2 m c) (m ((c.tc : Thread nD τ).loc main_arg6)))) (Cert.KernelIdeal.Spec.row (m ((c.tc : Thread nD τ).loc main_arg7)))

theorem h1_at4 : R4 m c (Proc.devRef .tc main_v49) = H1 m c := by
  refine (layer1 (R3 m c)).trans ?_
  rw [src3 m c, dst3 m c, weight3 m c, arg3 m c main_arg0 (by decide), arg3 m c main_arg2 (by decide), arg3 m c main_arg3 (by decide),
    dense32_eq, relu_addBias_eq]

theorem h2_at5 : R5 m c (Proc.devRef .tc main_v67) = H2 m c := by
  refine (layer2 (R4 m c)).trans ?_
  rw [h1_at4 m c, carry m c (keep4 m c) main_v3 (by decide), carry m c (keep4 m c) main_v6 (by decide), carry m c (keep4 m c) main_v31 (by decide),
    carry m c (keep4 m c) main_arg4 (by decide), carry m c (keep4 m c) main_arg5 (by decide),
    src3 m c, dst3 m c, weight3 m c, arg3 m c main_arg4 (by decide), arg3 m c main_arg5 (by decide), dense64_eq, relu_addBias_eq]

theorem h3_at6 : R6 m c (Proc.devRef .tc main_v84) = H3 m c := by
  have k5 := (keep4 m c).trans (keep5 m c)
  refine (layer3 (R5 m c)).trans ?_
  rw [h2_at5 m c, carry m c k5 main_v3 (by decide), carry m c k5 main_v6 (by decide), carry m c k5 main_v31 (by decide),
    carry m c k5 main_arg6 (by decide), carry m c k5 main_arg7 (by decide),
    src3 m c, dst3 m c, weight3 m c, arg3 m c main_arg6 (by decide), arg3 m c main_arg7 (by decide), dense64_eq, addBias_eq]

/-- The result buffer after the run holds the encoder of the arguments. -/
theorem result : R6 m c (Proc.devRef .tc main_v84)
    = encoder (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  h3_at6 m c

end Cert.ReferenceIdeal.LineValue

end
-- ==== Proof.lean ====
/-
  The three-layer graph-convolution encoder: the kernel program against its reference.

  Both programs compute, from the node features x [100000, 32], the edge list [2, 1600000] and three weight / bias
  pairs, the same function (Proof/Layers.lean, `encoder`): with self loops added, an edge's weight is the product of
  rsqrt (max degree 1) at its two ends (0 where the degree is 0); a layer multiplies the features by its weight,
  gathers the rows at the edges' sources, scales them by the edges' weights, scatter-adds them at the targets and adds
  the bias; the first two layers end in relu. The host operations on the graph are the same in the two programs
  (Proof/Spec.lean). They differ in the dense steps: the kernel program runs each matrix product and each bias step as
  a region over ten row blocks (Proof/Region0 … Region5: each region's output array is the product, or the bias step,
  of the arrays it finds, entry by entry — over the extended reals the narrowing of the operands is the identity and a
  product into a zero accumulator is the plain sum), the reference as `dot_general`, two broadcasts, an add and a
  maximum on the host (Proof/RefValue.lean: the same functions, entry by entry). No law beyond these readings joins the
  two sides, so the inputs' finiteness is not used.

  The kernel program's run with its result buffer named is Proof/ResultRun.lean, the contents of that buffer as the
  encoder of the arguments Proof/Fold.lean (over Proof/HostRead.lean, the host stretches between the regions); the
  reference's run is Proof/RefLine.lean, its stretches Proof/RefRead.lean, its result Proof/RefValue.lean.
  The ideal pass rewrote nothing, so the kernel's idealization is its own text read over the extended reals.
-/
import proofs.«138914_j13649406066714_1_alg».proof.Defs
import proofs.«138914_j13649406066714_1_alg».proof.Proof.Gen.Kernel
import proofs.«138914_j13649406066714_1_alg».proof.Proof.Gen.Kernel.Skeleton
import proofs.«138914_j13649406066714_1_alg».proof.Proof.Gen.Kernel.Launch
import proofs.«138914_j13649406066714_1_alg».proof.Proof.Gen.Kernel.Points
import proofs.«138914_j13649406066714_1_alg».proof.Proof.Gen.Kernel.Frame
import proofs.«138914_j13649406066714_1_alg».proof.Proof.Gen.KernelIdeal
import proofs.«138914_j13649406066714_1_alg».proof.Proof.Gen.KernelIdeal.Skeleton
import proofs.«138914_j13649406066714_1_alg».proof.Proof.Gen.KernelIdeal.Launch
import proofs.«138914_j13649406066714_1_alg».proof.Proof.Gen.KernelIdeal.Points
import proofs.«138914_j13649406066714_1_alg».proof.Proof.Gen.KernelIdeal.Frame
import proofs.«138914_j13649406066714_1_alg».proof.Proof.Gen.ReferenceIdeal
import proofs.«138914_j13649406066714_1_alg».proof.Proof.Gen.Pre_finite_inputs
import proofs.«138914_j13649406066714_1_alg».proof.Proof.ResultRun
import proofs.«138914_j13649406066714_1_alg».proof.Proof.Fold
import proofs.«138914_j13649406066714_1_alg».proof.Proof.RefLine
import proofs.«138914_j13649406066714_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations, none of which writes an argument. -/
theorem frame_reference : Cert.frame_ReferenceIdeal := fun m ρ _ =>
  (θ_run Cert.ReferenceIdeal.defs _ _).mono (fun _ h c =>
    ⟨(h c Cert.ReferenceIdeal.main_arg0).trans (Cert.ReferenceIdeal.LineValue.arg6 m c Cert.ReferenceIdeal.main_arg0 (by decide)),
     (h c Cert.ReferenceIdeal.main_arg1).trans (Cert.ReferenceIdeal.LineValue.arg6 m c Cert.ReferenceIdeal.main_arg1 (by decide)),
     (h c Cert.ReferenceIdeal.main_arg2).trans (Cert.ReferenceIdeal.LineValue.arg6 m c Cert.ReferenceIdeal.main_arg2 (by decide)),
     (h c Cert.ReferenceIdeal.main_arg3).trans (Cert.ReferenceIdeal.LineValue.arg6 m c Cert.ReferenceIdeal.main_arg3 (by decide)),
     (h c Cert.ReferenceIdeal.main_arg4).trans (Cert.ReferenceIdeal.LineValue.arg6 m c Cert.ReferenceIdeal.main_arg4 (by decide)),
     (h c Cert.ReferenceIdeal.main_arg5).trans (Cert.ReferenceIdeal.LineValue.arg6 m c Cert.ReferenceIdeal.main_arg5 (by decide)),
     (h c Cert.ReferenceIdeal.main_arg6).trans (Cert.ReferenceIdeal.LineValue.arg6 m c Cert.ReferenceIdeal.main_arg6 (by decide)),
     (h c Cert.ReferenceIdeal.main_arg7).trans (Cert.ReferenceIdeal.LineValue.arg6 m c Cert.ReferenceIdeal.main_arg7 (by decide))⟩)
    (Cert.ReferenceIdeal.Line.run (F := Ideal) m ρ)

/-- The ideal pass rewrote no operation. -/
theorem preserves : Cert.preserves_Kernel_KernelIdeal := trivial

/-- Both programs end with the encoder of the arguments in their result buffers. -/
theorem algebraic : Cert.algebraic_KernelIdeal_ReferenceIdeal := by
  intro m ρ m' ρ' _ hagree
  refine ⟨fun c => Cert.KernelIdeal.Layers.encoder (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Fold.result m ρ c), (h c).2⟩) (Cert.KernelIdeal.ResultRun.run m ρ)
  · refine (θ_run Cert.ReferenceIdeal.defs _ _).mono (fun r h c => ?_) (Cert.ReferenceIdeal.Line.run (F := Ideal) m' ρ')
    obtain ⟨e0, e1, e2, e3, e4, e5, e6, e7⟩ := hagree c
    refine ⟨(h c Cert.ReferenceIdeal.main_v84).trans ?_,
     (h c Cert.ReferenceIdeal.main_arg0).trans (Cert.ReferenceIdeal.LineValue.arg6 m' c Cert.ReferenceIdeal.main_arg0 (by decide)),
     (h c Cert.ReferenceIdeal.main_arg1).trans (Cert.ReferenceIdeal.LineValue.arg6 m' c Cert.ReferenceIdeal.main_arg1 (by decide)),
     (h c Cert.ReferenceIdeal.main_arg2).trans (Cert.ReferenceIdeal.LineValue.arg6 m' c Cert.ReferenceIdeal.main_arg2 (by decide)),
     (h c Cert.ReferenceIdeal.main_arg3).trans (Cert.ReferenceIdeal.LineValue.arg6 m' c Cert.ReferenceIdeal.main_arg3 (by decide)),
     (h c Cert.ReferenceIdeal.main_arg4).trans (Cert.ReferenceIdeal.LineValue.arg6 m' c Cert.ReferenceIdeal.main_arg4 (by decide)),
     (h c Cert.ReferenceIdeal.main_arg5).trans (Cert.ReferenceIdeal.LineValue.arg6 m' c Cert.ReferenceIdeal.main_arg5 (by decide)),
     (h c Cert.ReferenceIdeal.main_arg6).trans (Cert.ReferenceIdeal.LineValue.arg6 m' c Cert.ReferenceIdeal.main_arg6 (by decide)),
     (h c Cert.ReferenceIdeal.main_arg7).trans (Cert.ReferenceIdeal.LineValue.arg6 m' c Cert.ReferenceIdeal.main_arg7 (by decide))⟩
    rw [Cert.ReferenceIdeal.LineValue.result m' c, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
